-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S2x16000000 : Shape := ⟨2, ![2, 16000000]⟩
abbrev S500000 : Shape := ⟨1, ![500000]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S16 .f32) (main_arg5 : FVec F S16x1 .f32) (main_arg6 : FVec F S1 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg5
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S500000x2 .f32) (main_arg1 : FVec F S2x16 .f32) (main_arg2 : FVec F S16 .f32) (main_arg3 : FVec F S16x16 .f32) (main_arg4 : FVec F S16 .f32) (main_arg5 : FVec F S16x1 .f32) (main_arg6 : FVec F S1 .f32) (main_arg7 : IVec S2x16000000 32) (main_arg8 : IVec S500000 32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S2x16 .f32 := Host.absf main_arg1
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg4 main_arg5 main_arg6 main_v13 main_v16
-- ==== Kernel.lean ====
abbrev S500000x2 : Shape := ⟨2, ![500000, 2]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S2x16000000 : Shape := ⟨2, ![2, 16000000]⟩
abbrev S500000 : Shape := ⟨1, ![500000]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S500000x1 : Shape := ⟨2, ![500000, 1]⟩
abbrev S5000x1 : Shape := ⟨2, ![5000, 1]⟩
abbrev S500000x16 : Shape := ⟨2, ![500000, 16]⟩
abbrev S5000x2 : Shape := ⟨2, ![5000, 2]⟩
abbrev S5000x16 : Shape := ⟨2, ![5000, 16]⟩
abbrev S16000000x16 : Shape := ⟨2, ![16000000, 16]⟩
abbrev S1x16 : Shape := ⟨2, ![1, 16]⟩
abbrev S4096x16 : Shape := ⟨2, ![4096, 16]⟩
abbrev S4096 : Shape := ⟨1, ![4096]⟩
abbrev S4096x1 : Shape := ⟨2, ![4096, 1]⟩
abbrev S1x1 : Shape := ⟨2, ![1, 1]⟩

abbrev nBuf : Space → Nat
  | .hbm => 96
  | .vmem => 53
  | .smem => 0
  | _ => 0

abbrev bufTy : (tb : Table) → Fin (tcTables nBuf tb) → BufTy
  | .hbm, ⟨0, _⟩ => ⟨S500000x2, .f32⟩
  | .hbm, ⟨1, _⟩ => ⟨S2x16, .f32⟩
  | .hbm, ⟨2, _⟩ => ⟨S16, .f32⟩
  | .hbm, ⟨3, _⟩ => ⟨S16x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S2x16000000, .i32⟩
  | .hbm, ⟨8, _⟩ => ⟨S500000, .i32⟩
  | .hbm, ⟨9, _⟩ => ⟨S1x16000000, .i32⟩
  | .hbm, ⟨10, _⟩ => ⟨S16000000, .i32⟩
  | .hbm, ⟨11, _⟩ => ⟨S1x16000000, .i32⟩
  | .hbm, ⟨12, _⟩ => ⟨S16000000, .i32⟩
  | .hbm, ⟨13, _⟩ => ⟨S_, .f32⟩
  | .hbm, ⟨14, _⟩ => ⟨S16000000, .f32⟩
  | .hbm, ⟨15, _⟩ => ⟨S_, .f32⟩
  | .hbm, ⟨16, _⟩ => ⟨S500000, .f32⟩
  | .hbm, ⟨17, _⟩ => ⟨S16000000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .f32⟩
  | .hbm, ⟨22, _⟩ => ⟨S500000x1, .f32⟩
  | .hbm, ⟨23, _⟩ => ⟨S500000x1, .f32⟩
  | .hbm, ⟨24, _⟩ => ⟨S500000, .f32⟩
  | .hbm, ⟨25, _⟩ => ⟨S_, .i32⟩
  | .hbm, ⟨26, _⟩ => ⟨S16000000, .i32⟩
  | .hbm, ⟨27, _⟩ => ⟨S16000000, .i1⟩
  | .hbm, ⟨28, _⟩ => ⟨S_, .i32⟩
  | .hbm, ⟨29, _⟩ => ⟨S16000000, .i32⟩
  | .hbm, ⟨30, _⟩ => ⟨S16000000, .i32⟩
  | .hbm, ⟨31, _⟩ => ⟨S16000000, .i32⟩
  | .hbm, ⟨32, _⟩ => ⟨S16000000x1, .i32⟩
  | .hbm, ⟨33, _⟩ => ⟨S16000000, .f32⟩
  | .hbm, ⟨34, _⟩ => ⟨S_, .i32⟩
  | .hbm, ⟨35, _⟩ => ⟨S16000000, .i32⟩
  | .hbm, ⟨36, _⟩ => ⟨S16000000, .i1⟩
  | .hbm, ⟨37, _⟩ => ⟨S_, .i32⟩
  | .hbm, ⟨38, _⟩ => ⟨S16000000, .i32⟩
  | .hbm, ⟨39, _⟩ => ⟨S16000000, .i32⟩
  | .hbm, ⟨40, _⟩ => ⟨S16000000, .i32⟩
  | .hbm, ⟨41, _⟩ => ⟨S16000000x1, .i32⟩
  | .hbm, ⟨42, _⟩ => ⟨S16000000, .f32⟩
  | .hbm, ⟨43, _⟩ => ⟨S500000x16, .f32⟩
  | .hbm, ⟨44, _⟩ => ⟨S_, .i32⟩
  | .hbm, ⟨45, _⟩ => ⟨S16000000, .i32⟩
  | .hbm, ⟨46, _⟩ => ⟨S16000000, .i1⟩
  | .hbm, ⟨47, _⟩ => ⟨S_, .i32⟩
  | .hbm, ⟨48, _⟩ => ⟨S16000000, .i32⟩
  | .hbm, ⟨49, _⟩ => ⟨S16000000, .i32⟩
  | .hbm, ⟨50, _⟩ => ⟨S16000000, .i32⟩
  | .hbm, ⟨51, _⟩ => ⟨S16000000x1, .i32⟩
  | .hbm, ⟨52, _⟩ => ⟨S16000000x16, .f32⟩
  | .hbm, ⟨53, _⟩ => ⟨S16000000x1, .f32⟩
  | .hbm, ⟨54, _⟩ => ⟨S16000000x1, .f32⟩
  | .hbm, ⟨55, _⟩ => ⟨S16000000x16, .f32⟩
  | .hbm, ⟨56, _⟩ => ⟨S_, .f32⟩
  | .hbm, ⟨57, _⟩ => ⟨S500000x16, .f32⟩
  | .hbm, ⟨58, _⟩ => ⟨S16000000x1, .i32⟩
  | .hbm, ⟨59, _⟩ => ⟨S500000x16, .f32⟩
  | .hbm, ⟨60, _⟩ => ⟨S500000x1, .f32⟩
  | .hbm, ⟨61, _⟩ => ⟨S1x16, .f32⟩
  | .hbm, ⟨62, _⟩ => ⟨S500000x16, .f32⟩
  | .hbm, ⟨63, _⟩ => ⟨S500000x16, .f32⟩
  | .hbm, ⟨64, _⟩ => ⟨S_, .i32⟩
  | .hbm, ⟨65, _⟩ => ⟨S16000000, .i32⟩
  | .hbm, ⟨66, _⟩ => ⟨S16000000, .i1⟩
  | .hbm, ⟨67, _⟩ => ⟨S_, .i32⟩
  | .hbm, ⟨68, _⟩ => ⟨S16000000, .i32⟩
  | .hbm, ⟨69, _⟩ => ⟨S16000000, .i32⟩
  | .hbm, ⟨70, _⟩ => ⟨S16000000, .i32⟩
  | .hbm, ⟨71, _⟩ => ⟨S16000000x1, .i32⟩
  | .hbm, ⟨72, _⟩ => ⟨S16000000x16, .f32⟩
  | .hbm, ⟨73, _⟩ => ⟨S16000000x1, .f32⟩
  | .hbm, ⟨74, _⟩ => ⟨S16000000x1, .f32⟩
  | .hbm, ⟨75, _⟩ => ⟨S16000000x16, .f32⟩
  | .hbm, ⟨76, _⟩ => ⟨S_, .f32⟩
  | .hbm, ⟨77, _⟩ => ⟨S500000x16, .f32⟩
  | .hbm, ⟨78, _⟩ => ⟨S16000000x1, .i32⟩
  | .hbm, ⟨79, _⟩ => ⟨S500000x16, .f32⟩
  | .hbm, ⟨80, _⟩ => ⟨S500000x1, .f32⟩
  | .hbm, ⟨81, _⟩ => ⟨S1x16, .f32⟩
  | .hbm, ⟨82, _⟩ => ⟨S500000x16, .f32⟩
  | .hbm, ⟨83, _⟩ => ⟨S_, .f32⟩
  | .hbm, ⟨84, _⟩ => ⟨S4096x16, .f32⟩
  | .hbm, ⟨85, _⟩ => ⟨S500000x1, .i32⟩
  | .hbm, ⟨86, _⟩ => ⟨S4096x16, .f32⟩
  | .hbm, ⟨87, _⟩ => ⟨S_, .f32⟩
  | .hbm, ⟨88, _⟩ => ⟨S500000, .f32⟩
  | .hbm, ⟨89, _⟩ => ⟨S_, .f32⟩
  | .hbm, ⟨90, _⟩ => ⟨S4096, .f32⟩
  | .hbm, ⟨91, _⟩ => ⟨S500000x1, .i32⟩
  | .hbm, ⟨92, _⟩ => ⟨S4096, .f32⟩
  | .hbm, ⟨93, _⟩ => ⟨S4096x1, .f32⟩
  | .hbm, ⟨94, _⟩ => ⟨S1x1, .f32⟩
  | .hbm, ⟨95, _⟩ => ⟨S4096x1, .f32⟩
  | .local _ .vmem, ⟨0, _⟩ => ⟨S5000x1, .f32⟩
  | .local _ .vmem, ⟨1, _⟩ => ⟨S5000x1, .f32⟩
  | .local _ .vmem, ⟨2, _⟩ => ⟨S5000x1, .f32⟩
  | .local _ .vmem, ⟨3, _⟩ => ⟨S5000x1, .f32⟩
  | .local _ .vmem, ⟨4, _⟩ => ⟨S5000x2, .f32⟩
  | .local _ .vmem, ⟨5, _⟩ => ⟨S5000x2, .f32⟩
  | .local _ .vmem, ⟨6, _⟩ => ⟨S2x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x1, .f32⟩
  | .local _ .vmem, ⟨22, _⟩ => ⟨S5000x1, .f32⟩
  | .local _ .vmem, ⟨23, _⟩ => ⟨S1x16, .f32⟩
  | .local _ .vmem, ⟨24, _⟩ => ⟨S5000x16, .f32⟩
  | .local _ .vmem, ⟨25, _⟩ => ⟨S5000x16, .f32⟩
  | .local _ .vmem, ⟨26, _⟩ => ⟨S5000x16, .f32⟩
  | .local _ .vmem, ⟨27, _⟩ => ⟨S5000x16, .f32⟩
  | .local _ .vmem, ⟨28, _⟩ => ⟨S16x16, .f32⟩
  | .local _ .vmem, ⟨29, _⟩ => ⟨S5000x16, .f32⟩
  | .local _ .vmem, ⟨30, _⟩ => ⟨S5000x16, .f32⟩
  | .local _ .vmem, ⟨31, _⟩ => ⟨S5000x16, .f32⟩
  | .local _ .vmem, ⟨32, _⟩ => ⟨S5000x16, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x16, .f32⟩
  | .local _ .vmem, ⟨38, _⟩ => ⟨S5000x16, .f32⟩
  | .local _ .vmem, ⟨39, _⟩ => ⟨S5000x16, .f32⟩
  | .local _ .vmem, ⟨40, _⟩ => ⟨S5000x16, .f32⟩
  | .local _ .vmem, ⟨41, _⟩ => ⟨S5000x16, .f32⟩
  | .local _ .vmem, ⟨42, _⟩ => ⟨S5000x16, .f32⟩
  | .local _ .vmem, ⟨43, _⟩ => ⟨S5000x1, .f32⟩
  | .local _ .vmem, ⟨44, _⟩ => ⟨S5000x1, .f32⟩
  | .local _ .vmem, ⟨45, _⟩ => ⟨S1x16, .f32⟩
  | .local _ .vmem, ⟨46, _⟩ => ⟨S5000x16, .f32⟩
  | .local _ .vmem, ⟨47, _⟩ => ⟨S5000x16, .f32⟩
  | .local _ .vmem, ⟨48, _⟩ => ⟨S4096x16, .f32⟩
  | .local _ .vmem, ⟨49, _⟩ => ⟨S4096x1, .f32⟩
  | .local _ .vmem, ⟨50, _⟩ => ⟨S16x1, .f32⟩
  | .local _ .vmem, ⟨51, _⟩ => ⟨S1x1, .f32⟩
  | .local _ .vmem, ⟨52, _⟩ => ⟨S4096x1, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg3_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg2_1 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg4_1 : Ref sig .tc := ⟨.vmem, 47, rfl⟩
abbrev cc7_stg0_0 : Ref sig .tc := ⟨.vmem, 48, rfl⟩
abbrev cc7_stg1_0 : Ref sig .tc := ⟨.vmem, 49, rfl⟩
abbrev cc7_stg2_0 : Ref sig .tc := ⟨.vmem, 50, rfl⟩
abbrev cc7_stg3_0 : Ref sig .tc := ⟨.vmem, 51, rfl⟩
abbrev cc7_stg4_0 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem3_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem2_1 : DmaSem sig := 44
abbrev cc6_sem3_0 : DmaSem sig := 45
abbrev cc6_sem4_0 : DmaSem sig := 46
abbrev cc6_sem4_1 : DmaSem sig := 47
abbrev cc7_sem0_0 : DmaSem sig := 48
abbrev cc7_sem1_0 : DmaSem sig := 49
abbrev cc7_sem2_0 : DmaSem sig := 50
abbrev cc7_sem3_0 : DmaSem sig := 51
abbrev cc7_sem4_0 : DmaSem sig := 52

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![3200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![3200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x16 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x16 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S4096x16 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S4096x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S16x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S4096x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S_S500000 : S_.BroadcastsInDim S500000 (![] : Fin 0 → Fin S500000.rank)
  bcast_S16000000_S16000000x1_0 : S16000000.BroadcastsInDim S16000000x1 (![0] : Fin 1 → Fin S16000000x1.rank)
  shapeCasts_S500000_S500000x1 : S500000.ShapeCasts S500000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S500000x1_S500000 : S500000x1.ShapeCasts S500000
  inb_S5000x2_S5000x2_0_0 : ∀ a, (![0, 0] : Fin 2 → Nat) a + S5000x2.size a ≤ S5000x2.size a
  h_S5000x2 : 0 < S5000x2.numel
  bitsLt_bf16_f32 : FTy.bits .bf16 < FTy.bits .f32
  inb_S2x16_S2x16_0_0 : ∀ a, (![0, 0] : Fin 2 → Nat) a + S2x16.size a ≤ S2x16.size a
  h_S2x16 : 0 < S2x16.numel
  inb_S5000x16_S5000x16_0_0 : ∀ a, (![0, 0] : Fin 2 → Nat) a + S5000x16.size a ≤ S5000x16.size a
  h_S5000x16 : 0 < S5000x16.numel
  shapeCasts_S16000000_S16000000x1 : S16000000.ShapeCasts S16000000x1
  shapeCasts_S5000x16_S5000x16 : S5000x16.ShapeCasts S5000x16
  broadcasts_S5000x1_S5000x16 : S5000x1.Broadcasts S5000x16
  bcast_S_S500000x16 : S_.BroadcastsInDim S500000x16 (![] : Fin 0 → Fin S500000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  bcast_S_S4096x16 : S_.BroadcastsInDim S4096x16 (![] : Fin 0 → Fin S4096x16.rank)
  bcast_S500000_S500000x1_0 : S500000.BroadcastsInDim S500000x1 (![0] : Fin 1 → Fin S500000x1.rank)
  bcast_S_S4096 : S_.BroadcastsInDim S4096 (![] : Fin 0 → Fin S4096.rank)
  shapeCasts_S4096_S4096x1 : S4096.ShapeCasts S4096x1
  shapeCasts_S1_S1x1 : S1.ShapeCasts S1x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  broadcasts_S4096x1_S4096x16 : S4096x1.Broadcasts S4096x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  scatter_S500000_S16000000x1_S16000000_n_0_0_1_wf : ScatterDims.WF S500000 S16000000x1 S16000000 [] [0] [0] 1
  gather_S500000_S16000000x1_S16000000_n_0_n_n_0_1_1_wf : GatherDims.WF S500000 S16000000x1 S16000000 [] [0] [] [0] [] 1 ![1]
  dot_S5000x2_S2x16_S5000x16_1_0_0_1_n_n_wf : DotDims.WF S5000x2 S2x16 S5000x16 [1] [0] [0] [1] [] []
  gather_S500000x16_S16000000x1_S16000000x16_1_0_n_n_0_1_116_wf : GatherDims.WF S500000x16 S16000000x1 S16000000x16 [1] [0] [] [0] [] 1 ![1, 16]
  scatter_S500000x16_S16000000x1_S16000000x16_1_0_0_1_wf : ScatterDims.WF S500000x16 S16000000x1 S16000000x16 [1] [0] [0] 1
  dot_S5000x16_S16x16_S5000x16_1_0_0_1_n_n_wf : DotDims.WF S5000x16 S16x16 S5000x16 [1] [0] [0] [1] [] []
  scatter_S4096x16_S500000x1_S500000x16_1_0_0_1_wf : ScatterDims.WF S4096x16 S500000x1 S500000x16 [1] [0] [0] 1
  scatter_S4096_S500000x1_S500000_n_0_0_1_wf : ScatterDims.WF S4096 S500000x1 S500000 [] [0] [0] 1
  dot_S4096x16_S16x1_S4096x1_1_0_0_1_n_n_wf : DotDims.WF S4096x16 S16x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S500000x1.size a
  hwx0_0 : ∀ i : grid0.Coords, EltTy.bits .f32 = 32 ∨ (Rect.block (s := S500000x1) S5000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S500000x1.size a
  hwx0_1 : ∀ i : grid0.Coords, EltTy.bits .f32 = 32 ∨ (Rect.block (s := S500000x1) S5000x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x2.size a ≤ S500000x2.size a
  hwx1_0 : ∀ i : grid1.Coords, EltTy.bits .f32 = 32 ∨ (Rect.block (s := S500000x2) S5000x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x16.size a ≤ S2x16.size a
  hwx1_1 : ∀ i : grid1.Coords, EltTy.bits .f32 = 32 ∨ (Rect.block (s := S2x16) S2x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S500000x16.size a
  hwx1_2 : ∀ i : grid1.Coords, EltTy.bits .f32 = 32 ∨ (Rect.block (s := S500000x16) S5000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S16000000x16.size a
  hwx2_0 : ∀ i : grid2.Coords, EltTy.bits .f32 = 32 ∨ (Rect.block (s := S16000000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S16000000x1.size a
  hwx2_1 : ∀ i : grid2.Coords, EltTy.bits .f32 = 32 ∨ (Rect.block (s := S16000000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S16000000x1.size a
  hwx2_2 : ∀ i : grid2.Coords, EltTy.bits .f32 = 32 ∨ (Rect.block (s := S16000000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S16000000x16.size a
  hwx2_3 : ∀ i : grid2.Coords, EltTy.bits .f32 = 32 ∨ (Rect.block (s := S16000000x16) S5000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S500000x16.size a
  hwx3_0 : ∀ i : grid3.Coords, EltTy.bits .f32 = 32 ∨ (Rect.block (s := S500000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S500000x16.size a
  hwx3_1 : ∀ i : grid3.Coords, EltTy.bits .f32 = 32 ∨ (Rect.block (s := S500000x16) S5000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S500000x1.size a
  hwx3_2 : ∀ i : grid3.Coords, EltTy.bits .f32 = 32 ∨ (Rect.block (s := S500000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S500000x16.size a
  hwx3_4 : ∀ i : grid3.Coords, EltTy.bits .f32 = 32 ∨ (Rect.block (s := S500000x16) S5000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S500000x16.size a
  hwx4_0 : ∀ i : grid4.Coords, EltTy.bits .f32 = 32 ∨ (Rect.block (s := S500000x16) S5000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x16.size a ≤ S16x16.size a
  hwx4_1 : ∀ i : grid4.Coords, EltTy.bits .f32 = 32 ∨ (Rect.block (s := S16x16) S16x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S500000x16.size a
  hwx4_2 : ∀ i : grid4.Coords, EltTy.bits .f32 = 32 ∨ (Rect.block (s := S500000x16) S5000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S16000000x16.size a
  hwx5_0 : ∀ i : grid5.Coords, EltTy.bits .f32 = 32 ∨ (Rect.block (s := S16000000x16) S5000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S16000000x1.size a
  hwx5_1 : ∀ i : grid5.Coords, EltTy.bits .f32 = 32 ∨ (Rect.block (s := S16000000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S16000000x1.size a
  hwx5_2 : ∀ i : grid5.Coords, EltTy.bits .f32 = 32 ∨ (Rect.block (s := S16000000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x16.size a ≤ S16000000x16.size a
  hwx5_3 : ∀ i : grid5.Coords, EltTy.bits .f32 = 32 ∨ (Rect.block (s := S16000000x16) S5000x16.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x16.size a ≤ S500000x16.size a
  hwx6_0 : ∀ i : grid6.Coords, EltTy.bits .f32 = 32 ∨ (Rect.block (s := S500000x16) S5000x16.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x16.size a ≤ S500000x16.size a
  hwx6_1 : ∀ i : grid6.Coords, EltTy.bits .f32 = 32 ∨ (Rect.block (s := S500000x16) S5000x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S500000x1.size a
  hwx6_2 : ∀ i : grid6.Coords, EltTy.bits .f32 = 32 ∨ (Rect.block (s := S500000x1) S5000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x16.size a ≤ S1x16.size a
  hwx6_3 : ∀ i : grid6.Coords, EltTy.bits .f32 = 32 ∨ (Rect.block (s := S1x16) S1x16.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x16.size a ≤ S500000x16.size a
  hwx6_4 : ∀ i : grid6.Coords, EltTy.bits .f32 = 32 ∨ (Rect.block (s := S500000x16) S5000x16.size (cc6_transform_4 i) (hinb6_4 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S4096x16.size a ≤ S4096x16.size a
  hwx7_0 : ∀ i : grid7.Coords, EltTy.bits .f32 = 32 ∨ (Rect.block (s := S4096x16) S4096x16.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S4096x1.size a ≤ S4096x1.size a
  hwx7_1 : ∀ i : grid7.Coords, EltTy.bits .f32 = 32 ∨ (Rect.block (s := S4096x1) S4096x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S16x1.size a ≤ S16x1.size a
  hwx7_2 : ∀ i : grid7.Coords, EltTy.bits .f32 = 32 ∨ (Rect.block (s := S16x1) S16x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x1.size a ≤ S1x1.size a
  hwx7_3 : ∀ i : grid7.Coords, EltTy.bits .f32 = 32 ∨ (Rect.block (s := S1x1) S1x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S4096x1.size a ≤ S4096x1.size a
  hwx7_4 : ∀ i : grid7.Coords, EltTy.bits .f32 = 32 ∨ (Rect.block (s := S4096x1) S4096x1.size (cc7_transform_4 i) (hinb7_4 i)).WholeWords (EltTy.packing .f32)

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def dot_S5000x2_S2x16_S5000x16_1_0_0_1_n_n : DotDims S5000x2 S2x16 S5000x16 where
  lhsContracting := [1]
  rhsContracting := [0]
  lhsNonContracting := [0]
  rhsNonContracting := [1]
  lhsBatch := []
  rhsBatch := []
  wf := dot_S5000x2_S2x16_S5000x16_1_0_0_1_n_n_wf
def gather_S500000x16_S16000000x1_S16000000x16_1_0_n_n_0_1_116 : GatherDims S500000x16 S16000000x1 S16000000x16 where
  offsetDims := [1]
  collapsedSliceDims := [0]
  operandBatchingDims := []
  startIndicesBatchingDims := []
  startIndexMap := [0]
  indexVectorDim := 1
  sliceSizes := ![1, 16]
  wf := gather_S500000x16_S16000000x1_S16000000x16_1_0_n_n_0_1_116_wf
def scatter_S500000x16_S16000000x1_S16000000x16_1_0_0_1 : ScatterDims S500000x16 S16000000x1 S16000000x16 where
  updateWindowDims := [1]
  insertedWindowDims := [0]
  scatterDimsToOperandDims := [0]
  indexVectorDim := 1
  wf := scatter_S500000x16_S16000000x1_S16000000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def scatter_S4096x16_S500000x1_S500000x16_1_0_0_1 : ScatterDims S4096x16 S500000x1 S500000x16 where
  updateWindowDims := [1]
  insertedWindowDims := [0]
  scatterDimsToOperandDims := [0]
  indexVectorDim := 1
  wf := scatter_S4096x16_S500000x1_S500000x16_1_0_0_1_wf
def scatter_S4096_S500000x1_S500000_n_0_0_1 : ScatterDims S4096 S500000x1 S500000 where
  updateWindowDims := []
  insertedWindowDims := [0]
  scatterDimsToOperandDims := [0]
  indexVectorDim := 1
  wf := scatter_S4096_S500000x1_S500000_n_0_0_1_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

abbrev win0_0 : Pipeline.Window sig grid0 :=
  Pipeline.Window.ofSpec (Memref.whole main_v10) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S5000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v34) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v40) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v42) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S5000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v43) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S16x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v44) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v51) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v54) S5000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v57) S5000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v44) S5000x16.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v58) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v59) S1x16.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v60) S5000x16.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v63) S4096x16.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_v68) S4096x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg5) S16x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v69) S1x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v70) S4096x1.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S500000x2 : Shape := ⟨2, ![500000, 2]⟩
abbrev S2x16 : Shape := ⟨2, ![2, 16]⟩
abbrev S16 : Shape := ⟨1, ![16]⟩
abbrev S16x16 : Shape := ⟨2, ![16, 16]⟩
abbrev S16x1 : Shape := ⟨2, ![16, 1]⟩
abbrev S1 : Shape := ⟨1, ![1]⟩
abbrev S2x16000000 : Shape := ⟨2, ![2, 16000000]⟩
abbrev S500000 : Shape := ⟨1, ![500000]⟩
abbrev S1x16000000 : Shape := ⟨2, ![1, 16000000]⟩
abbrev S16000000 : Shape := ⟨1, ![16000000]⟩
abbrev S_ : Shape := ⟨0, ![]⟩
abbrev S16000000x1 : Shape := ⟨2, ![16000000, 1]⟩
abbrev S500000x16 : Shape := ⟨2, ![500000, 16]⟩
abbrev S16000000x16 : Shape := ⟨2, ![16000000, 16]⟩
abbrev S500000x1 : Shape := ⟨2, ![500000, 1]⟩
abbrev S1x16 : Shape := ⟨2, ![1, 16]⟩
abbrev S4096x16 : Shape := ⟨2, ![4096, 16]⟩
abbrev S4096 : Shape := ⟨1, ![4096]⟩
abbrev S4096x1 : Shape := ⟨2, ![4096, 1]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S500000x2, .f32⟩
  | 1 => ⟨S2x16, .f32⟩
  | 2 => ⟨S16, .f32⟩
  | 3 => ⟨S16x16, .f32⟩
  | 4 => ⟨S16, .f32⟩
  | 5 => ⟨S16x1, .f32⟩
  | 6 => ⟨S1, .f32⟩
  | 7 => ⟨S2x16000000, .i32⟩
  | 8 => ⟨S500000, .i32⟩
  | 9 => ⟨S1x16000000, .i32⟩
  | 10 => ⟨S16000000, .i32⟩
  | 11 => ⟨S1x16000000, .i32⟩
  | 12 => ⟨S16000000, .i32⟩
  | 13 => ⟨S_, .f32⟩
  | 14 => ⟨S16000000, .f32⟩
  | 15 => ⟨S_, .f32⟩
  | 16 => ⟨S500000, .f32⟩
  | 17 => ⟨S16000000x1, .i32⟩
  | 18 => ⟨S500000, .f32⟩
  | 19 => ⟨S_, .f32⟩
  | 20 => ⟨S500000, .f32⟩
  | 21 => ⟨S500000, .f32⟩
  | 22 => ⟨S500000, .f32⟩
  | 23 => ⟨S500000x16, .f32⟩
  | 24 => ⟨S_, .i32⟩
  | 25 => ⟨S16000000, .i32⟩
  | 26 => ⟨S16000000, .i1⟩
  | 27 => ⟨S_, .i32⟩
  | 28 => ⟨S16000000, .i32⟩
  | 29 => ⟨S16000000, .i32⟩
  | 30 => ⟨S16000000, .i32⟩
  | 31 => ⟨S16000000x1, .i32⟩
  | 32 => ⟨S16000000, .f32⟩
  | 33 => ⟨S_, .i32⟩
  | 34 => ⟨S16000000, .i32⟩
  | 35 => ⟨S16000000, .i1⟩
  | 36 => ⟨S_, .i32⟩
  | 37 => ⟨S16000000, .i32⟩
  | 38 => ⟨S16000000, .i32⟩
  | 39 => ⟨S16000000, .i32⟩
  | 40 => ⟨S16000000x1, .i32⟩
  | 41 => ⟨S16000000, .f32⟩
  | 42 => ⟨S16000000, .f32⟩
  | 43 => ⟨S_, .i32⟩
  | 44 => ⟨S16000000, .i32⟩
  | 45 => ⟨S16000000, .i1⟩
  | 46 => ⟨S_, .i32⟩
  | 47 => ⟨S16000000, .i32⟩
  | 48 => ⟨S16000000, .i32⟩
  | 49 => ⟨S16000000, .i32⟩
  | 50 => ⟨S16000000x1, .i32⟩
  | 51 => ⟨S16000000x16, .f32⟩
  | 52 => ⟨S16000000x1, .f32⟩
  | 53 => ⟨S16000000x16, .f32⟩
  | 54 => ⟨S16000000x16, .f32⟩
  | 55 => ⟨S_, .f32⟩
  | 56 => ⟨S500000x16, .f32⟩
  | 57 => ⟨S16000000x1, .i32⟩
  | 58 => ⟨S500000x16, .f32⟩
  | 59 => ⟨S500000, .f32⟩
  | 60 => ⟨S500000x1, .f32⟩
  | 61 => ⟨S500000x16, .f32⟩
  | 62 => ⟨S500000x16, .f32⟩
  | 63 => ⟨S500000x16, .f32⟩
  | 64 => ⟨S1x16, .f32⟩
  | 65 => ⟨S500000x16, .f32⟩
  | 66 => ⟨S500000x16, .f32⟩
  | 67 => ⟨S_, .f32⟩
  | 68 => ⟨S500000x16, .f32⟩
  | 69 => ⟨S500000x16, .f32⟩
  | 70 => ⟨S500000x16, .f32⟩
  | 71 => ⟨S_, .i32⟩
  | 72 => ⟨S16000000, .i32⟩
  | 73 => ⟨S16000000, .i1⟩
  | 74 => ⟨S_, .i32⟩
  | 75 => ⟨S16000000, .i32⟩
  | 76 => ⟨S16000000, .i32⟩
  | 77 => ⟨S16000000, .i32⟩
  | 78 => ⟨S16000000x1, .i32⟩
  | 79 => ⟨S16000000, .f32⟩
  | 80 => ⟨S_, .i32⟩
  | 81 => ⟨S16000000, .i32⟩
  | 82 => ⟨S16000000, .i1⟩
  | 83 => ⟨S_, .i32⟩
  | 84 => ⟨S16000000, .i32⟩
  | 85 => ⟨S16000000, .i32⟩
  | 86 => ⟨S16000000, .i32⟩
  | 87 => ⟨S16000000x1, .i32⟩
  | 88 => ⟨S16000000, .f32⟩
  | 89 => ⟨S16000000, .f32⟩
  | 90 => ⟨S_, .i32⟩
  | 91 => ⟨S16000000, .i32⟩
  | 92 => ⟨S16000000, .i1⟩
  | 93 => ⟨S_, .i32⟩
  | 94 => ⟨S16000000, .i32⟩
  | 95 => ⟨S16000000, .i32⟩
  | 96 => ⟨S16000000, .i32⟩
  | 97 => ⟨S16000000x1, .i32⟩
  | 98 => ⟨S16000000x16, .f32⟩
  | 99 => ⟨S16000000x1, .f32⟩
  | 100 => ⟨S16000000x16, .f32⟩
  | 101 => ⟨S16000000x16, .f32⟩
  | 102 => ⟨S_, .f32⟩
  | 103 => ⟨S500000x16, .f32⟩
  | 104 => ⟨S16000000x1, .i32⟩
  | 105 => ⟨S500000x16, .f32⟩
  | 106 => ⟨S500000, .f32⟩
  | 107 => ⟨S500000x1, .f32⟩
  | 108 => ⟨S500000x16, .f32⟩
  | 109 => ⟨S500000x16, .f32⟩
  | 110 => ⟨S500000x16, .f32⟩
  | 111 => ⟨S1x16, .f32⟩
  | 112 => ⟨S500000x16, .f32⟩
  | 113 => ⟨S500000x16, .f32⟩
  | 114 => ⟨S_, .f32⟩
  | 115 => ⟨S500000x16, .f32⟩
  | 116 => ⟨S500000x16, .f32⟩
  | 117 => ⟨S_, .f32⟩
  | 118 => ⟨S4096x16, .f32⟩
  | 119 => ⟨S500000x1, .i32⟩
  | 120 => ⟨S4096x16, .f32⟩
  | 121 => ⟨S_, .f32⟩
  | 122 => ⟨S500000, .f32⟩
  | 123 => ⟨S_, .f32⟩
  | 124 => ⟨S4096, .f32⟩
  | 125 => ⟨S500000x1, .i32⟩
  | 126 => ⟨S4096, .f32⟩
  | 127 => ⟨S_, .f32⟩
  | _ => ⟨S500000x2, .f32⟩

abbrev hbmTy0_1 (i : Nat) : BufTy := match i % 128 with
  | 0 => ⟨S4096, .f32⟩
  | 1 => ⟨S4096, .f32⟩
  | 2 => ⟨S4096x1, .f32⟩
  | 3 => ⟨S4096x16, .f32⟩
  | 4 => ⟨S4096x16, .f32⟩
  | 5 => ⟨S4096x1, .f32⟩
  | 6 => ⟨S1x1, .f32⟩
  | 7 => ⟨S4096x1, .f32⟩
  | 8 => ⟨S4096x1, .f32⟩
  | _ => ⟨S500000x2, .f32⟩

abbrev hbmTy (i : Nat) : BufTy := match i / 128 with
  | 0 => hbmTy0_0 i
  | 1 => hbmTy0_1 i
  | _ => ⟨S500000x2, .f32⟩

abbrev bufTy : (tb : Table) → Fin (tcTables nBuf tb) → BufTy
  | .hbm, ⟨i, _⟩ => hbmTy i
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call1_cst : Ref sig .tc := ⟨.hbm, 114, rfl⟩
abbrev main_call1_v0 : Ref sig .tc := ⟨.hbm, 115, rfl⟩
abbrev main_v86 : Ref sig .tc := ⟨.hbm, 116, rfl⟩
abbrev main_cst_15 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  bcast_S_S16000000 : S_.BroadcastsInDim S16000000 (![] : Fin 0 → Fin S16000000.rank)
  bcast_S_S500000 : S_.BroadcastsInDim S500000 (![] : Fin 0 → Fin S500000.rank)
  bcast_S16000000_S16000000x1_0 : S16000000.BroadcastsInDim S16000000x1 (![0] : Fin 1 → Fin S16000000x1.rank)
  bcast_S16000000x1_S16000000x16_0_1 : S16000000x1.BroadcastsInDim S16000000x16 (![0, 1] : Fin 2 → Fin S16000000x16.rank)
  bcast_S_S500000x16 : S_.BroadcastsInDim S500000x16 (![] : Fin 0 → Fin S500000x16.rank)
  bcast_S500000_S500000x1_0 : S500000.BroadcastsInDim S500000x1 (![0] : Fin 1 → Fin S500000x1.rank)
  bcast_S500000x1_S500000x16_0_1 : S500000x1.BroadcastsInDim S500000x16 (![0, 1] : Fin 2 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S_S4096x16 : S_.BroadcastsInDim S4096x16 (![] : Fin 0 → Fin S4096x16.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x16_0_1 : S4096x1.BroadcastsInDim S4096x16 (![0, 1] : Fin 2 → Fin S4096x16.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S500000_S16000000x1_S16000000_n_0_0_1_wf : ScatterDims.WF S500000 S16000000x1 S16000000 [] [0] [0] 1
  dot_S500000x2_S2x16_S500000x16_1_0_0_1_n_n_wf : DotDims.WF S500000x2 S2x16 S500000x16 [1] [0] [0] [1] [] []
  gather_S500000_S16000000x1_S16000000_n_0_n_n_0_1_1_wf : GatherDims.WF S500000 S16000000x1 S16000000 [] [0] [] [0] [] 1 ![1]
  gather_S500000x16_S16000000x1_S16000000x16_1_0_n_n_0_1_116_wf : GatherDims.WF S500000x16 S16000000x1 S16000000x16 [1] [0] [] [0] [] 1 ![1, 16]
  scatter_S500000x16_S16000000x1_S16000000x16_1_0_0_1_wf : ScatterDims.WF S500000x16 S16000000x1 S16000000x16 [1] [0] [0] 1
  dot_S500000x16_S16x16_S500000x16_1_0_0_1_n_n_wf : DotDims.WF S500000x16 S16x16 S500000x16 [1] [0] [0] [1] [] []
  scatter_S4096x16_S500000x1_S500000x16_1_0_0_1_wf : ScatterDims.WF S4096x16 S500000x1 S500000x16 [1] [0] [0] 1
  scatter_S4096_S500000x1_S500000_n_0_0_1_wf : ScatterDims.WF S4096 S500000x1 S500000 [] [0] [0] 1
  dot_S4096x16_S16x1_S4096x1_1_0_0_1_n_n_wf : DotDims.WF S4096x16 S16x1 S4096x1 [1] [0] [0] [1] [] []

variable [Facts₀]

def scatter_S500000_S16000000x1_S16000000_n_0_0_1 : ScatterDims S500000 S16000000x1 S16000000 where
  updateWindowDims := []
  insertedWindowDims := [0]
  scatterDimsToOperandDims := [0]
  indexVectorDim := 1
  wf := scatter_S500000_S16000000x1_S16000000_n_0_0_1_wf
def dot_S500000x2_S2x16_S500000x16_1_0_0_1_n_n : DotDims S500000x2 S2x16 S500000x16 where
  lhsContracting := [1]
  rhsContracting := [0]
  lhsNonContracting := [0]
  rhsNonContracting := [1]
  lhsBatch := []
  rhsBatch := []
  wf := dot_S500000x2_S2x16_S500000x16_1_0_0_1_n_n_wf
def gather_S500000_S16000000x1_S16000000_n_0_n_n_0_1_1 : GatherDims S500000 S16000000x1 S16000000 where
  offsetDims := []
  collapsedSliceDims := [0]
  operandBatchingDims := []
  startIndicesBatchingDims := []
  startIndexMap := [0]
  indexVectorDim := 1
  sliceSizes := ![1]
  wf := gather_S500000_S16000000x1_S16000000_n_0_n_n_0_1_1_wf
def gather_S500000x16_S16000000x1_S16000000x16_1_0_n_n_0_1_116 : GatherDims S500000x16 S16000000x1 S16000000x16 where
  offsetDims := [1]
  collapsedSliceDims := [0]
  operandBatchingDims := []
  startIndicesBatchingDims := []
  startIndexMap := [0]
  indexVectorDim := 1
  sliceSizes := ![1, 16]
  wf := gather_S500000x16_S16000000x1_S16000000x16_1_0_n_n_0_1_116_wf
def scatter_S500000x16_S16000000x1_S16000000x16_1_0_0_1 : ScatterDims S500000x16 S16000000x1 S16000000x16 where
  updateWindowDims := [1]
  insertedWindowDims := [0]
  scatterDimsToOperandDims := [0]
  indexVectorDim := 1
  wf := scatter_S500000x16_S16000000x1_S16000000x16_1_0_0_1_wf
def dot_S500000x16_S16x16_S500000x16_1_0_0_1_n_n : DotDims S500000x16 S16x16 S500000x16 where
  lhsContracting := [1]
  rhsContracting := [0]
  lhsNonContracting := [0]
  rhsNonContracting := [1]
  lhsBatch := []
  rhsBatch := []
  wf := dot_S500000x16_S16x16_S500000x16_1_0_0_1_n_n_wf
def scatter_S4096x16_S500000x1_S500000x16_1_0_0_1 : ScatterDims S4096x16 S500000x1 S500000x16 where
  updateWindowDims := [1]
  insertedWindowDims := [0]
  scatterDimsToOperandDims := [0]
  indexVectorDim := 1
  wf := scatter_S4096x16_S500000x1_S500000x16_1_0_0_1_wf
def scatter_S4096_S500000x1_S500000_n_0_0_1 : ScatterDims S4096 S500000x1 S500000 where
  updateWindowDims := []
  insertedWindowDims := [0]
  scatterDimsToOperandDims := [0]
  indexVectorDim := 1
  wf := scatter_S4096_S500000x1_S500000_n_0_0_1_wf
def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf

class Facts : Prop extends Facts₀ where

variable [Facts]
-- ==== Proof.KernelRun.lean ====
/-
  The idealized kernel's run with its result named. Between the host stretches and the eight pallas_calls the
  TensorCore's buffers pass through sixteen valuations W0 … W15 (a stretch applies its operations to the valuation
  before it; a call replaces its output array by what its grid's write-backs leave). Every weakly fair execution ends
  with every unscoped buffer at W15; here that is read at the result buffer as well as at the nine arguments, so the
  result is W15's value there and the arguments are the launch's.
-/
import proofs.«175368_j53214644797942_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault; the result buffer ends at the
    last valuation's value there and each argument as launched. -/
theorem run : θ_run defs (onTc (τ := τ) (main (F := F))) ⟨m, fun _ => 0, ρ⟩ (fun r => ∀ c : Dev nD,
      r.2.mem ((c.tc : Thread nD τ).loc main_v70) = W15 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v70 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.KernelIdeal.Result

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.LibUnitBlock.lean ====
/-
  A leading unit axis and unit-extent rows or columns of rank-2 arrays, read at an index written by its coordinates,
  over arbitrary extents and any element type:

  * `drop_lead_apply`: a [1,a,b] block viewed as an [a,b] matrix reads, at (p, q), the block at (0, p, q);
  * `add_lead_apply`: an [a,b] matrix viewed as a [1,a,b] block reads, at (u, p, q), the matrix at (p, q);
  * `row_spread_apply`: a [1,b] row spread over [a,b] reads, at (p, q), the row at (0, q);
  * `col_spread_apply`: an [a,1] column spread over [a,b] reads, at (p, q), the column at (p, 0).

  The two views keep the row-major position (the unit coordinate contributes nothing); a spread reads coordinate 0
  along the operand's unit axis.
-/
import Idealize.ShloMosaic.Lib.ValueIdx
import Idealize.ShloMosaic.Lib.Pipeline.Value

namespace LibUnitBlock

open Idealize.ShloMosaic Idealize.ShloMosaic.ValueIdx

variable {α : Type} {a b : ℕ}

/-- A [1,b] row spread over [a,b] reads, at (p, q), the row at (0, q). -/
theorem row_spread_apply (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An [a,1] column spread over [a,b] reads, at (p, q), the column at (p, 0). -/
theorem col_spread_apply (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A [1,a,b] block viewed as [a,b] reads, at (p, q), the block at (0, p, q). -/
theorem drop_lead_apply (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  shapeCast_apply v h _ _ (by
    rw [Shape.rowMajor_val_three, Shape.rowMajor_val_two]
    show (0 * a + p.val) * b + q.val = p.val * b + q.val
    rw [Nat.zero_mul, Nat.zero_add])

/-- An [a,b] matrix viewed as a [1,a,b] block reads, at (u, p, q), the matrix at (p, q). -/
theorem add_lead_apply (v : (⟨2, ![a, b]⟩ : Shape).Idx → α)
    (h : (⟨2, ![a, b]⟩ : Shape).ShapeCasts ⟨3, ![1, a, b]⟩) (u : Fin 1) (p : Fin a) (q : Fin b) :
    shapeCast ⟨3, ![1, a, b]⟩ v h (ix3 u p q) = v (ix2 p q) :=
  shapeCast_apply v h _ _ (by
    have hu : u.val = 0 := by omega
    rw [Shape.rowMajor_val_three, Shape.rowMajor_val_two]
    show p.val * b + q.val = (u.val * a + p.val) * b + q.val
    rw [hu, Nat.zero_mul, Nat.zero_add])

end LibUnitBlock
-- ==== Proof.Spec.lean ====
/-
  The five entry-wise functions a two-layer graph convolution with mean pooling is made of, on the extended reals,
  each as a function of whole arrays and of the entry's coordinates (p, q):

  * `rsq d p`            = rsqrt (d[p, 0]): the inverse square root of a node's degree;
  * `prod X W p q`       = Σ_c X[p, c] · W[c, q]: a feature product;
  * `msg H a b p q`      = H[p, q] · (a[p, 0] · b[p, 0]): an edge's message scaled by the two endpoint factors;
  * `comb S H d β p q`   = max (S[p, q] + H[p, q] · (d[p, 0] · d[p, 0]) + β[0, q]) 0: aggregate + self-loop + bias, clamped;
  * `pool S n W β p q`   = Σ_c (S[p, c] / max n[p, 0] 1) · W[c, q] + β[0, q]: the mean-pooled rows through the head.

  `arr2 f` is the array whose entry at (p, q) is `f p q`. A row of any of these depends on the same row of the
  operands laid out by rows (and on all of a weight matrix or bias row), which is what lets a kernel compute them a
  block of rows at a time: `*_rows` say so.
-/
import Idealize.ShloMosaic.PureOps.Ideal.Laws
import Idealize.ShloMosaic.Lib.ValueIdx

noncomputable section

open scoped BigOperators

namespace Cert.Gcn

open Idealize.ShloMosaic Idealize.ShloMosaic.ValueIdx

variable {a b k r : ℕ}

/-- The array with entry `f p q` at (p, q). -/
def arr2 (f : Fin a → Fin b → EReal) : (⟨2, ![a, b]⟩ : Shape).Idx → EReal :=
  fun i => f ⟨(i 0).val, (i 0).isLt⟩ ⟨(i 1).val, (i 1).isLt⟩

theorem arr2_ix2 (f : Fin a → Fin b → EReal) (p : Fin a) (q : Fin b) : arr2 f (ix2 p q) = f p q := rfl

/-- An entry of `arr2 f` is `f` at the entry's coordinates, however they are presented. -/
theorem arr2_of_val (f : Fin a → Fin b → EReal) (i : (⟨2, ![a, b]⟩ : Shape).Idx) (p : Fin a) (q : Fin b)
    (hp : (i 0).val = p.val) (hq : (i 1).val = q.val) : arr2 f i = f p q := by
  unfold arr2
  congr 1 <;> exact Fin.ext (by assumption)

/-- The inverse square root of the degree column. -/
def rsq (d : (⟨2, ![a, 1]⟩ : Shape).Idx → EReal) (p : Fin a) (_ : Fin 1) : EReal := Ideal.rsqrt (d (ix2 p (0 : Fin 1)))

/-- A matrix product's entry. -/
def prod (X : (⟨2, ![a, k]⟩ : Shape).Idx → EReal) (W : (⟨2, ![k, b]⟩ : Shape).Idx → EReal) (p : Fin a) (q : Fin b) : EReal :=
  ∑ c : Fin k, X (ix2 p c) * W (ix2 c q)

/-- A scaled message's entry. -/
def msg (H : (⟨2, ![a, b]⟩ : Shape).Idx → EReal) (x y : (⟨2, ![a, 1]⟩ : Shape).Idx → EReal) (p : Fin a) (q : Fin b) : EReal :=
  H (ix2 p q) * (x (ix2 p (0 : Fin 1)) * y (ix2 p (0 : Fin 1)))

/-- Aggregate plus self-loop term plus bias, clamped below at zero. -/
def comb (S H : (⟨2, ![a, b]⟩ : Shape).Idx → EReal) (d : (⟨2, ![a, 1]⟩ : Shape).Idx → EReal)
    (β : (⟨2, ![1, b]⟩ : Shape).Idx → EReal) (p : Fin a) (q : Fin b) : EReal :=
  max (S (ix2 p q) + H (ix2 p q) * (d (ix2 p (0 : Fin 1)) * d (ix2 p (0 : Fin 1))) + β (ix2 (0 : Fin 1) q))
    (Ideal.ofBits .f32 0x00000000#32)

/-- A row of sums divided by its clamped count, through the linear head. -/
def pool (S : (⟨2, ![a, k]⟩ : Shape).Idx → EReal) (n : (⟨2, ![a, 1]⟩ : Shape).Idx → EReal)
    (W : (⟨2, ![k, b]⟩ : Shape).Idx → EReal) (β : (⟨2, ![1, b]⟩ : Shape).Idx → EReal) (p : Fin a) (q : Fin b) : EReal :=
  (∑ c : Fin k, Ideal.div (S (ix2 p c)) (max (n (ix2 p (0 : Fin 1))) (Ideal.ofBits .f32 0x3F800000#32)) * W (ix2 c q))
    + β (ix2 (0 : Fin 1) q)

/-! ## A block of rows computes the matching rows -/

theorem rsq_rows (d : (⟨2, ![r, 1]⟩ : Shape).Idx → EReal) (D : (⟨2, ![a, 1]⟩ : Shape).Idx → EReal) (p : Fin r) (P : Fin a)
    (u : Fin 1) (hd : d (ix2 p (0 : Fin 1)) = D (ix2 P (0 : Fin 1))) : rsq d p u = rsq D P u := by
  unfold rsq; rw [hd]

theorem prod_rows (x : (⟨2, ![r, k]⟩ : Shape).Idx → EReal) (X : (⟨2, ![a, k]⟩ : Shape).Idx → EReal)
    (w W : (⟨2, ![k, b]⟩ : Shape).Idx → EReal) (p : Fin r) (P : Fin a) (q : Fin b)
    (hx : ∀ c : Fin k, x (ix2 p c) = X (ix2 P c)) (hw : ∀ c : Fin k, w (ix2 c q) = W (ix2 c q)) :
    prod x w p q = prod X W P q := by
  unfold prod
  exact Finset.sum_congr rfl fun c _ => by rw [hx c, hw c]

theorem msg_rows (h : (⟨2, ![r, b]⟩ : Shape).Idx → EReal) (H : (⟨2, ![a, b]⟩ : Shape).Idx → EReal)
    (x y : (⟨2, ![r, 1]⟩ : Shape).Idx → EReal) (X Y : (⟨2, ![a, 1]⟩ : Shape).Idx → EReal) (p : Fin r) (P : Fin a) (q : Fin b)
    (hh : h (ix2 p q) = H (ix2 P q)) (hx : x (ix2 p (0 : Fin 1)) = X (ix2 P (0 : Fin 1)))
    (hy : y (ix2 p (0 : Fin 1)) = Y (ix2 P (0 : Fin 1))) : msg h x y p q = msg H X Y P q := by
  unfold msg; rw [hh, hx, hy]

theorem comb_rows (s h : (⟨2, ![r, b]⟩ : Shape).Idx → EReal) (S H : (⟨2, ![a, b]⟩ : Shape).Idx → EReal)
    (d : (⟨2, ![r, 1]⟩ : Shape).Idx → EReal) (D : (⟨2, ![a, 1]⟩ : Shape).Idx → EReal)
    (β β' : (⟨2, ![1, b]⟩ : Shape).Idx → EReal) (p : Fin r) (P : Fin a) (q : Fin b)
    (hs : s (ix2 p q) = S (ix2 P q)) (hh : h (ix2 p q) = H (ix2 P q))
    (hd : d (ix2 p (0 : Fin 1)) = D (ix2 P (0 : Fin 1))) (hβ : β (ix2 (0 : Fin 1) q) = β' (ix2 (0 : Fin 1) q)) :
    comb s h d β p q = comb S H D β' P q := by
  unfold comb; rw [hs, hh, hd, hβ]

theorem pool_rows (s : (⟨2, ![r, k]⟩ : Shape).Idx → EReal) (S : (⟨2, ![a, k]⟩ : Shape).Idx → EReal)
    (n : (⟨2, ![r, 1]⟩ : Shape).Idx → EReal) (N : (⟨2, ![a, 1]⟩ : Shape).Idx → EReal)
    (w W : (⟨2, ![k, b]⟩ : Shape).Idx → EReal) (β β' : (⟨2, ![1, b]⟩ : Shape).Idx → EReal) (p : Fin r) (P : Fin a) (q : Fin b)
    (hs : ∀ c : Fin k, s (ix2 p c) = S (ix2 P c)) (hn : n (ix2 p (0 : Fin 1)) = N (ix2 P (0 : Fin 1)))
    (hw : ∀ c : Fin k, w (ix2 c q) = W (ix2 c q)) (hβ : β (ix2 (0 : Fin 1) q) = β' (ix2 (0 : Fin 1) q)) :
    pool s n w β p q = pool S N W β' P q := by
  unfold pool
  rw [hn, hβ]
  exact congrArg (· + β' (ix2 (0 : Fin 1) q)) (Finset.sum_congr rfl fun c _ => by rw [hs c, hw c])

end Cert.Gcn

end
-- ==== Proof.Tiles.lean ====
/-
  What each kernel body stores, read at one entry (p, q) of its output tile, on the extended reals: the
  specification's entry-wise functions of the loaded tiles.

  * the degree tile:   `rsq` of the loaded column;
  * the product tiles: `prod` of the two loaded operands — the narrowing to bf16 is the identity on the extended
    reals and the accumulator starts at zero;
  * the message tiles: `msg` — the per-edge scale is a column spread along the lanes;
  * the combine tiles: `comb` — the self-loop term, the bias row spread down the rows, the clamp at zero (the body
    loads the degree-factor column twice; both loads are the same tile);
  * the pooling tile:  `pool`.
-/
import proofs.«175368_j53214644797942_2_alg».proof.Proof.Gen.KernelIdeal.Skeleton
import proofs.«175368_j53214644797942_2_alg».proof.Proof.LibMatmul2
import proofs.«175368_j53214644797942_2_alg».proof.Proof.LibUnitBlock
import proofs.«175368_j53214644797942_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Tiles

open Cert.KernelIdeal Cert.KernelIdeal.Gen Idealize.ShloMosaic Idealize.ShloMosaic.ValueIdx Cert.Gcn

/-- The zero offsets of a whole-tile access. -/
theorem hz : (![0, 0] : Fin 2 → Nat) = fun _ => 0 := funext fun a => by fin_cases a <;> rfl

/-- The degree tile: one reciprocal square root per entry. -/
theorem deg_tile (v0 : Vec Ideal S5000x1 .f32) (p : Fin 5000) (u : Fin 1) :
    k0_pay1 v0 (ix2 p u) = rsq (a := 5000) v0 p u := by
  obtain rfl : u = 0 := Subsingleton.elim _ _
  unfold k0_pay1
  rw [shapeCast_self]
  rfl

/-- The first layer's product tile. -/
theorem prod1_tile (v0 : Vec Ideal S5000x2 .f32) (v2 : Vec Ideal S2x16 .f32) (p : Fin 5000) (q : Fin 16) :
    k1_pay1 v0 v2 (ix2 p q) = prod (a := 5000) (k := 2) (b := 16) v0 v2 p q := by
  unfold k1_pay1
  exact LibMatmul2.matmul_nn_apply dot_S5000x2_S2x16_S5000x16_1_0_0_1_n_n.wf none
    (truncf .bf16 v0 bitsLt_bf16_f32) (truncf .bf16 v2 bitsLt_bf16_f32) p q

/-- The second layer's product tile. -/
theorem prod2_tile (v0 : Vec Ideal S5000x16 .f32) (v3 : Vec Ideal S16x16 .f32) (p : Fin 5000) (q : Fin 16) :
    k4_pay1 v0 v3 (ix2 p q) = prod (a := 5000) (k := 16) (b := 16) v0 v3 p q := by
  unfold k4_pay1
  rw [shapeCast_self]
  exact LibMatmul2.matmul_nn_apply dot_S5000x16_S16x16_S5000x16_1_0_0_1_n_n.wf none
    (truncf .bf16 v0 bitsLt_bf16_f32) (truncf .bf16 v3 bitsLt_bf16_f32) p q

/-- The first layer's message tile. -/
theorem msg1_tile (v0 v2 : Vec Ideal S5000x1 .f32) (v5 : Vec Ideal S5000x16 .f32) (p : Fin 5000) (q : Fin 16) :
    k2_pay1 v0 v2 v5 (ix2 p q) = msg (a := 5000) (b := 16) v5 v0 v2 p q := by
  unfold k2_pay1
  rw [shapeCast_self, shapeCast_self, shapeCast_self, mulf_apply, LibUnitBlock.col_spread_apply, mulf_apply]
  rfl

/-- The second layer's message tile. -/
theorem msg2_tile (v0 v2 : Vec Ideal S5000x1 .f32) (v5 : Vec Ideal S5000x16 .f32) (p : Fin 5000) (q : Fin 16) :
    k5_pay1 v0 v2 v5 (ix2 p q) = msg (a := 5000) (b := 16) v5 v0 v2 p q := by
  unfold k5_pay1
  rw [shapeCast_self, shapeCast_self, shapeCast_self, mulf_apply, LibUnitBlock.col_spread_apply, mulf_apply]
  rfl

/-- The first layer's combine tile. -/
theorem comb1_tile (v0 : Vec Ideal S5000x16 .f32) (v2 : Vec Ideal S5000x1 .f32) (v9 : Vec Ideal S5000x16 .f32)
    (v12 : Vec Ideal S1x16 .f32) (p : Fin 5000) (q : Fin 16) :
    k3_pay1 v0 v2 v2 v9 v12 (ix2 p q) = comb (a := 5000) (b := 16) v9 v0 v2 v12 p q := by
  unfold k3_pay1
  rw [shapeCast_self, shapeCast_self, shapeCast_self, shapeCast_self, maximumf_apply, addf_apply, addf_apply,
    mulf_apply, LibUnitBlock.col_spread_apply, mulf_apply, LibUnitBlock.row_spread_apply]
  rfl

/-- The second layer's combine tile. -/
theorem comb2_tile (v0 : Vec Ideal S5000x16 .f32) (v2 : Vec Ideal S5000x1 .f32) (v9 : Vec Ideal S5000x16 .f32)
    (v12 : Vec Ideal S1x16 .f32) (p : Fin 5000) (q : Fin 16) :
    k6_pay1 v0 v2 v2 v9 v12 (ix2 p q) = comb (a := 5000) (b := 16) v9 v0 v2 v12 p q := by
  unfold k6_pay1
  rw [shapeCast_self, shapeCast_self, shapeCast_self, shapeCast_self, maximumf_apply, addf_apply, addf_apply,
    mulf_apply, LibUnitBlock.col_spread_apply, mulf_apply, LibUnitBlock.row_spread_apply]
  rfl

/-- The pooling tile. -/
theorem pool_tile (v0 : Vec Ideal S4096x1 .f32) (v4 : Vec Ideal S4096x16 .f32) (v9 : Vec Ideal S16x1 .f32)
    (v12 : Vec Ideal S1x1 .f32) (p : Fin 4096) (q : Fin 1) :
    k7_pay1 v0 v4 v9 v12 (ix2 p q) = pool (a := 4096) (k := 16) (b := 1) v4 v0 v9 v12 p q := by
  unfold k7_pay1
  rw [shapeCast_self, shapeCast_self, shapeCast_self, addf_apply, LibUnitBlock.row_spread_apply]
  refine congrArg (· + v12 (ix2 (0 : Fin 1) q)) ?_
  refine (LibMatmul2.matmul_nn_apply dot_S4096x16_S16x1_S4096x1_1_0_0_1_n_n.wf none _ _ p q).trans ?_
  refine Finset.sum_congr rfl fun c _ => ?_
  rw [truncf_apply, truncf_apply, divf_apply, LibUnitBlock.col_spread_apply, maximumf_apply]
  rfl

end Cert.KernelIdeal.Tiles

end
-- ==== Proof.Region6.lean ====
/-
  The second combine call: a block of 5000 nodes' aggregates plus their self-loop terms plus the bias row, clamped at zero.
  The call's output array after its grid has run is one entry-wise function of the arrays the call found: block t of
  the output is rows 5000·t … 5000·t + 4999, every input laid out by rows is read through the same rows, and the blocks cover
  the array.
-/
import proofs.«175368_j53214644797942_2_alg».proof.Proof.Gen.KernelIdeal.Frame
import proofs.«175368_j53214644797942_2_alg».proof.Proof.Tiles
import proofs.«175368_j53214644797942_2_alg».proof.Proof.Spec

set_option maxRecDepth 16384

noncomputable section

namespace Cert.KernelIdeal.Region6

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- The windows' block indices at a grid point, decided over the grid. -/
theorem idx_facts : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = t.val
    ∧ win6_2.index t (1 : Fin 2) = 0
    ∧ win6_3.index t (0 : Fin 2) = 0
    ∧ win6_3.index t (1 : Fin 2) = 0
    ∧ win6_4.index t (0 : Fin 2) = t.val
    ∧ win6_4.index t (1 : Fin 2) = 0 :=
  (by decide +kernel : ∀ t : Fin grid6.N, _)

/-- The output array as one function of the arrays the call finds. -/
abbrev G (c : Dev nD) : S500000x16.Idx → EReal :=
  arr2 (a := 500000) (b := 16) (comb (a := 500000) (b := 16) (V c main_v57 : S500000x16.Idx → EReal) (V c main_v44 : S500000x16.Idx → EReal) (V c main_v58 : S500000x1.Idx → EReal) (V c main_v59 : S1x16.Idx → EReal))

/-- What grid point t writes back is block t of that function. -/
theorem flushed_eq (c : Dev nD) (t : Fin cfg6.N) :
    (dat6 V c).flushed 4 t = ((cfg6.win 4).blk t).view.read (Elt Ideal) (G V c) := by
  show (cfg6.win 4).cut (grid6.coords t) ((dat6 V c).after 4 t) = _
  rw [after6_4]
  unfold out6_4
  rw [View.canon_unit_zero Tiles.hz]
  simp only [View.ld_unit_zero (S := S5000x16) Tiles.hz, View.ld_unit_zero (S := S5000x1) Tiles.hz, View.ld_unit_zero (S := S1x16) Tiles.hz]
  funext j
  obtain ⟨p, q, rfl⟩ : ∃ (p : Fin 5000) (q : Fin 16), j = ix2 p q := ⟨j 0, j 1, eq_ix2 j⟩
  obtain ⟨e0, e1, e2, e3, e4, e5, e6, e7, e8, e9⟩ := idx_facts t
  have hN : t.val < 100 := Nat.lt_of_lt_of_eq t.isLt N_6
  have hP : 5000 * t.val + p.val < 500000 := by have := p.isLt; omega
  show k6_pay1 (iblk6 V c 1 t) (iblk6 V c 2 t) (iblk6 V c 2 t) (iblk6 V c 0 t) (iblk6 V c 3 t) (ix2 p q) = G V c (((cfg6.win 4).blk t).view.emb (ix2 p q))
  refine (Tiles.comb2_tile (iblk6 V c 1 t) (iblk6 V c 2 t) (iblk6 V c 0 t) (iblk6 V c 3 t) p q).trans ?_
  refine (comb_rows (r := 5000) (a := 500000) (b := 16) (iblk6 V c 0 t) (iblk6 V c 1 t) (V c main_v57 : S500000x16.Idx → EReal) (V c main_v44 : S500000x16.Idx → EReal) (iblk6 V c 2 t) (V c main_v58 : S500000x1.Idx → EReal) (iblk6 V c 3 t) (V c main_v59 : S1x16.Idx → EReal) p ⟨5000 * t.val + p.val, hP⟩ q ?_ ?_ ?_ ?_).trans ?_
  · show V c main_v57 (((cfg6.win 0).blk t).view.emb (ix2 p q)) = V c main_v57 (ix2 ⟨5000 * t.val + p.val, hP⟩ q)
    refine congrArg _ (funext fun a => Fin.ext ?_)
    match a with
    | ⟨0, _⟩ => show win6_0.index t (0 : Fin 2) * 5000 + 1 * p.val = 5000 * t.val + p.val; rw [e0]; omega
    | ⟨1, _⟩ => show win6_0.index t (1 : Fin 2) * 16 + 1 * q.val = q.val; rw [e1]; omega
  · show V c main_v44 (((cfg6.win 1).blk t).view.emb (ix2 p q)) = V c main_v44 (ix2 ⟨5000 * t.val + p.val, hP⟩ q)
    refine congrArg _ (funext fun a => Fin.ext ?_)
    match a with
    | ⟨0, _⟩ => show win6_1.index t (0 : Fin 2) * 5000 + 1 * p.val = 5000 * t.val + p.val; rw [e2]; omega
    | ⟨1, _⟩ => show win6_1.index t (1 : Fin 2) * 16 + 1 * q.val = q.val; rw [e3]; omega
  · show V c main_v58 (((cfg6.win 2).blk t).view.emb (ix2 p (0 : Fin 1))) = V c main_v58 (ix2 ⟨5000 * t.val + p.val, hP⟩ (0 : Fin 1))
    refine congrArg _ (funext fun a => Fin.ext ?_)
    match a with
    | ⟨0, _⟩ => show win6_2.index t (0 : Fin 2) * 5000 + 1 * p.val = 5000 * t.val + p.val; rw [e4]; omega
    | ⟨1, _⟩ => show win6_2.index t (1 : Fin 2) * 1 + 1 * (0 : Fin 1).val = (0 : Fin 1).val; rw [e5]; omega
  · show V c main_v59 (((cfg6.win 3).blk t).view.emb (ix2 (0 : Fin 1) q)) = V c main_v59 (ix2 (0 : Fin 1) q)
    refine congrArg _ (funext fun a => Fin.ext ?_)
    match a with
    | ⟨0, _⟩ => show win6_3.index t (0 : Fin 2) * 1 + 1 * (0 : Fin 1).val = (0 : Fin 1).val; rw [e6]; omega
    | ⟨1, _⟩ => show win6_3.index t (1 : Fin 2) * 16 + 1 * q.val = q.val; rw [e7]; omega
  · refine (arr2_of_val _ _ ⟨5000 * t.val + p.val, hP⟩ q ?_ ?_).symm
    · show win6_4.index t (0 : Fin 2) * 5000 + 1 * p.val = 5000 * t.val + p.val; rw [e8]; omega
    · show win6_4.index t (1 : Fin 2) * 16 + 1 * q.val = q.val; rw [e9]; omega

/-- An index is in point t's output block when each coordinate is in the block's range. -/
theorem mem_blk (t : Fin cfg6.N) (i : S500000x16.Idx) :
    i ∈ ((cfg6.win 4).blk t).view.set ↔ ∀ a : Fin 2, win6_4.index t a * S5000x16.size a ≤ (i a).val ∧ (i a).val < win6_4.index t a * S5000x16.size a + S5000x16.size a := by
  show i ∈ ((View.whole main_v60).slice (win6_4.rect t)).set ↔ _
  rw [View.set_slice_whole, Rect.mem_set_unit]
  exact Iff.rfl

/-- The output array after the call. -/
theorem arr (c : Dev nD) : (dat6 V c).arrAt 4 cfg6.N = G V c :=
  (dat6 V c).arrAt_eq_of_cover 4 (G V c) (fun t _ => flushed_eq V c t) fun i => by
    have hi0 : (i 0).val < 500000 := (i 0).isLt
    have hi1 : (i 1).val < 16 := (i 1).isLt
    have hN : cfg6.N = 100 := N_6
    refine ⟨⟨(i 0).val / 5000, by rw [hN]; omega⟩, flush6_4 _, ?_⟩
    rw [mem_blk]
    obtain ⟨e0, e1, e2, e3, e4, e5, e6, e7, e8, e9⟩ := idx_facts ⟨(i 0).val / 5000, by rw [hN]; omega⟩
    intro a
    match a with
    | ⟨0, _⟩ => show win6_4.index _ (0 : Fin 2) * 5000 ≤ (i 0).val ∧ (i 0).val < win6_4.index _ (0 : Fin 2) * 5000 + 5000; rw [e8]; show (i 0).val / 5000 * 5000 ≤ (i 0).val ∧ (i 0).val < (i 0).val / 5000 * 5000 + 5000; omega
    | ⟨1, _⟩ => show win6_4.index _ (1 : Fin 2) * 16 ≤ (i 1).val ∧ (i 1).val < win6_4.index _ (1 : Fin 2) * 16 + 16; rw [e9]; omega

end Cert.KernelIdeal.Region6

end
-- ==== Proof.Region7.lean ====
/-
  The pooling call: one block, the whole array of graph sums divided by the clamped counts and sent through the head.
  The call's output array after its grid has run is one entry-wise function of the arrays the call found: block t of
  the output is rows 4096·t … 4096·t + 4095, every input laid out by rows is read through the same rows, and the one block covers
  the array.
-/
import proofs.«175368_j53214644797942_2_alg».proof.Proof.Gen.KernelIdeal.Frame
import proofs.«175368_j53214644797942_2_alg».proof.Proof.Tiles
import proofs.«175368_j53214644797942_2_alg».proof.Proof.Spec

set_option maxRecDepth 16384

noncomputable section

namespace Cert.KernelIdeal.Region7

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- The windows' block indices at a grid point, decided over the grid. -/
theorem idx_facts : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = 0
    ∧ win7_3.index t (1 : Fin 2) = 0
    ∧ win7_4.index t (0 : Fin 2) = t.val
    ∧ win7_4.index t (1 : Fin 2) = 0 :=
  (by decide +kernel : ∀ t : Fin grid7.N, _)

/-- The output array as one function of the arrays the call finds. -/
abbrev G (c : Dev nD) : S4096x1.Idx → EReal :=
  arr2 (a := 4096) (b := 1) (pool (a := 4096) (k := 16) (b := 1) (V c main_v63 : S4096x16.Idx → EReal) (V c main_v68 : S4096x1.Idx → EReal) (V c main_arg5 : S16x1.Idx → EReal) (V c main_v69 : S1x1.Idx → EReal))

/-- What grid point t writes back is block t of that function. -/
theorem flushed_eq (c : Dev nD) (t : Fin cfg7.N) :
    (dat7 V c).flushed 4 t = ((cfg7.win 4).blk t).view.read (Elt Ideal) (G V c) := by
  show (cfg7.win 4).cut (grid7.coords t) ((dat7 V c).after 4 t) = _
  rw [after7_4]
  unfold out7_4
  rw [View.canon_unit_zero Tiles.hz]
  simp only [View.ld_unit_zero (S := S4096x1) Tiles.hz, View.ld_unit_zero (S := S4096x16) Tiles.hz, View.ld_unit_zero (S := S16x1) Tiles.hz, View.ld_unit_zero (S := S1x1) Tiles.hz]
  funext j
  obtain ⟨p, q, rfl⟩ : ∃ (p : Fin 4096) (q : Fin 1), j = ix2 p q := ⟨j 0, j 1, eq_ix2 j⟩
  obtain ⟨e0, e1, e2, e3, e4, e5, e6, e7, e8, e9⟩ := idx_facts t
  have hN : t.val < 1 := Nat.lt_of_lt_of_eq t.isLt N_7
  have hP : 4096 * t.val + p.val < 4096 := by have := p.isLt; omega
  show k7_pay1 (iblk7 V c 1 t) (iblk7 V c 0 t) (iblk7 V c 2 t) (iblk7 V c 3 t) (ix2 p q) = G V c (((cfg7.win 4).blk t).view.emb (ix2 p q))
  refine (Tiles.pool_tile (iblk7 V c 1 t) (iblk7 V c 0 t) (iblk7 V c 2 t) (iblk7 V c 3 t) p q).trans ?_
  refine (pool_rows (r := 4096) (a := 4096) (k := 16) (b := 1) (iblk7 V c 0 t) (V c main_v63 : S4096x16.Idx → EReal) (iblk7 V c 1 t) (V c main_v68 : S4096x1.Idx → EReal) (iblk7 V c 2 t) (V c main_arg5 : S16x1.Idx → EReal) (iblk7 V c 3 t) (V c main_v69 : S1x1.Idx → EReal) p ⟨4096 * t.val + p.val, hP⟩ q ?_ ?_ ?_ ?_).trans ?_
  · intro cc
    show V c main_v63 (((cfg7.win 0).blk t).view.emb (ix2 p cc)) = V c main_v63 (ix2 ⟨4096 * t.val + p.val, hP⟩ cc)
    refine congrArg _ (funext fun a => Fin.ext ?_)
    match a with
    | ⟨0, _⟩ => show win7_0.index t (0 : Fin 2) * 4096 + 1 * p.val = 4096 * t.val + p.val; rw [e0]; omega
    | ⟨1, _⟩ => show win7_0.index t (1 : Fin 2) * 16 + 1 * cc.val = cc.val; rw [e1]; omega
  · show V c main_v68 (((cfg7.win 1).blk t).view.emb (ix2 p (0 : Fin 1))) = V c main_v68 (ix2 ⟨4096 * t.val + p.val, hP⟩ (0 : Fin 1))
    refine congrArg _ (funext fun a => Fin.ext ?_)
    match a with
    | ⟨0, _⟩ => show win7_1.index t (0 : Fin 2) * 4096 + 1 * p.val = 4096 * t.val + p.val; rw [e2]; omega
    | ⟨1, _⟩ => show win7_1.index t (1 : Fin 2) * 1 + 1 * (0 : Fin 1).val = (0 : Fin 1).val; rw [e3]; omega
  · intro cc
    show V c main_arg5 (((cfg7.win 2).blk t).view.emb (ix2 cc q)) = V c main_arg5 (ix2 cc q)
    refine congrArg _ (funext fun a => Fin.ext ?_)
    match a with
    | ⟨0, _⟩ => show win7_2.index t (0 : Fin 2) * 16 + 1 * cc.val = cc.val; rw [e4]; omega
    | ⟨1, _⟩ => show win7_2.index t (1 : Fin 2) * 1 + 1 * q.val = q.val; rw [e5]; omega
  · show V c main_v69 (((cfg7.win 3).blk t).view.emb (ix2 (0 : Fin 1) q)) = V c main_v69 (ix2 (0 : Fin 1) q)
    refine congrArg _ (funext fun a => Fin.ext ?_)
    match a with
    | ⟨0, _⟩ => show win7_3.index t (0 : Fin 2) * 1 + 1 * (0 : Fin 1).val = (0 : Fin 1).val; rw [e6]; omega
    | ⟨1, _⟩ => show win7_3.index t (1 : Fin 2) * 1 + 1 * q.val = q.val; rw [e7]; omega
  · refine (arr2_of_val _ _ ⟨4096 * t.val + p.val, hP⟩ q ?_ ?_).symm
    · show win7_4.index t (0 : Fin 2) * 4096 + 1 * p.val = 4096 * t.val + p.val; rw [e8]; omega
    · show win7_4.index t (1 : Fin 2) * 1 + 1 * q.val = q.val; rw [e9]; omega

/-- An index is in point t's output block when each coordinate is in the block's range. -/
theorem mem_blk (t : Fin cfg7.N) (i : S4096x1.Idx) :
    i ∈ ((cfg7.win 4).blk t).view.set ↔ ∀ a : Fin 2, win7_4.index t a * S4096x1.size a ≤ (i a).val ∧ (i a).val < win7_4.index t a * S4096x1.size a + S4096x1.size a := by
  show i ∈ ((View.whole main_v70).slice (win7_4.rect t)).set ↔ _
  rw [View.set_slice_whole, Rect.mem_set_unit]
  exact Iff.rfl

/-- The output array after the call. -/
theorem arr (c : Dev nD) : (dat7 V c).arrAt 4 cfg7.N = G V c :=
  (dat7 V c).arrAt_eq_of_cover 4 (G V c) (fun t _ => flushed_eq V c t) fun i => by
    have hi0 : (i 0).val < 4096 := (i 0).isLt
    have hi1 : (i 1).val < 1 := (i 1).isLt
    have hN : cfg7.N = 1 := N_7
    refine ⟨⟨(i 0).val / 4096, by rw [hN]; omega⟩, flush7_4 _, ?_⟩
    rw [mem_blk]
    obtain ⟨e0, e1, e2, e3, e4, e5, e6, e7, e8, e9⟩ := idx_facts ⟨(i 0).val / 4096, by rw [hN]; omega⟩
    intro a
    match a with
    | ⟨0, _⟩ => show win7_4.index _ (0 : Fin 2) * 4096 ≤ (i 0).val ∧ (i 0).val < win7_4.index _ (0 : Fin 2) * 4096 + 4096; rw [e8]; show (i 0).val / 4096 * 4096 ≤ (i 0).val ∧ (i 0).val < (i 0).val / 4096 * 4096 + 4096; omega
    | ⟨1, _⟩ => show win7_4.index _ (1 : Fin 2) * 1 ≤ (i 1).val ∧ (i 1).val < win7_4.index _ (1 : Fin 2) * 1 + 1; rw [e9]; omega

end Cert.KernelIdeal.Region7

end
-- ==== Proof.Layout.lean ====
/-
  A vector laid out as a column, as a one-row matrix, and a column read back as a vector; each is what the
  corresponding reshape computes.
-/
import proofs.«175368_j53214644797942_2_alg».proof.Proof.Spec
import Idealize.ShloMosaic.Lib.Pipeline.Value

noncomputable section

namespace Cert.Gcn

open Idealize.ShloMosaic Idealize.ShloMosaic.ValueIdx

variable {a b : ℕ}

/-- The column whose entry (p, 0) is the vector's entry p. -/
def colOf (v : (⟨1, ![a]⟩ : Shape).Idx → EReal) : (⟨2, ![a, 1]⟩ : Shape).Idx → EReal :=
  fun i => v (ix1 ⟨(i 0).val, (i 0).isLt⟩)

theorem colOf_ix2 (v : (⟨1, ![a]⟩ : Shape).Idx → EReal) (p : Fin a) (u : Fin 1) : colOf v (ix2 p u) = v (ix1 p) := rfl

/-- The one-row matrix whose entry (0, q) is the vector's entry q. -/
def rowOf (v : (⟨1, ![b]⟩ : Shape).Idx → EReal) : (⟨2, ![1, b]⟩ : Shape).Idx → EReal :=
  fun i => v (ix1 ⟨(i 1).val, (i 1).isLt⟩)

theorem rowOf_ix2 (v : (⟨1, ![b]⟩ : Shape).Idx → EReal) (u : Fin 1) (q : Fin b) : rowOf v (ix2 u q) = v (ix1 q) := rfl

/-- The vector whose entry p is the column's entry (p, 0). -/
def vecOf (c : (⟨2, ![a, 1]⟩ : Shape).Idx → EReal) : (⟨1, ![a]⟩ : Shape).Idx → EReal :=
  fun i => c (ix2 ⟨(i 0).val, (i 0).isLt⟩ (0 : Fin 1))

theorem vecOf_ix1 (c : (⟨2, ![a, 1]⟩ : Shape).Idx → EReal) (p : Fin a) : vecOf c (ix1 p) = c (ix2 p (0 : Fin 1)) := rfl

/-- Reshaping a vector to a column. -/
theorem shapeCast_col (v : (⟨1, ![a]⟩ : Shape).Idx → EReal) (h : (⟨1, ![a]⟩ : Shape).ShapeCasts ⟨2, ![a, 1]⟩) :
    shapeCast ⟨2, ![a, 1]⟩ v h = colOf v := by
  funext i
  obtain ⟨p, u, rfl⟩ : ∃ (p : Fin a) (u : Fin 1), i = ix2 p u := ⟨i 0, i 1, eq_ix2 i⟩
  exact shapeCast_apply v h _ (ix1 p) (by
    have hu : u.val = 0 := by omega
    rw [Shape.rowMajor_val_two, Shape.rowMajor_val_one]
    show p.val = p.val * 1 + u.val
    omega)

/-- Reshaping a vector to a one-row matrix. -/
theorem shapeCast_row (v : (⟨1, ![b]⟩ : Shape).Idx → EReal) (h : (⟨1, ![b]⟩ : Shape).ShapeCasts ⟨2, ![1, b]⟩) :
    shapeCast ⟨2, ![1, b]⟩ v h = rowOf v := by
  funext i
  obtain ⟨u, q, rfl⟩ : ∃ (u : Fin 1) (q : Fin b), i = ix2 u q := ⟨i 0, i 1, eq_ix2 i⟩
  exact shapeCast_apply v h _ (ix1 q) (by
    have hu : u.val = 0 := by omega
    rw [Shape.rowMajor_val_two, Shape.rowMajor_val_one]
    show q.val = u.val * b + q.val
    rw [hu]; omega)

/-- Reshaping a column to a vector. -/
theorem shapeCast_vec (c : (⟨2, ![a, 1]⟩ : Shape).Idx → EReal) (h : (⟨2, ![a, 1]⟩ : Shape).ShapeCasts ⟨1, ![a]⟩) :
    shapeCast ⟨1, ![a]⟩ c h = vecOf c := by
  funext i
  obtain ⟨p, rfl⟩ : ∃ p : Fin a, i = ix1 p := ⟨i 0, eq_ix1 i⟩
  exact shapeCast_apply c h _ (ix2 p (0 : Fin 1)) (by
    rw [Shape.rowMajor_val_two, Shape.rowMajor_val_one]
    show p.val * 1 + 0 = p.val
    omega)

theorem vecOf_colOf (v : (⟨1, ![a]⟩ : Shape).Idx → EReal) : vecOf (colOf v) = v := by
  funext i
  obtain ⟨p, rfl⟩ : ∃ p : Fin a, i = ix1 p := ⟨i 0, eq_ix1 i⟩
  rfl

/-! ## Congruence of a function of several arrays -/

theorem congr_fn1 {α β : Sort _} (f : α → β) {x x' : α} (hx : x = x') : f x = f x' := by subst hx; rfl

theorem congr_fn2 {α β γ : Sort _} (f : α → β → γ) {x x' : α} {y y' : β} (hx : x = x') (hy : y = y') :
    f x y = f x' y' := by subst hx; subst hy; rfl

theorem congr_fn3 {α β γ δ : Sort _} (f : α → β → γ → δ) {x x' : α} {y y' : β} {z z' : γ}
    (hx : x = x') (hy : y = y') (hz : z = z') : f x y z = f x' y' z' := by subst hx; subst hy; subst hz; rfl

theorem congr_fn4 {α β γ δ ε : Sort _} (f : α → β → γ → δ → ε) {x x' : α} {y y' : β} {z z' : γ} {w w' : δ}
    (hx : x = x') (hy : y = y') (hz : z = z') (hw : w = w') : f x y z w = f x' y' z' w' := by
  subst hx; subst hy; subst hz; subst hw; rfl

end Cert.Gcn

end
-- ==== Proof.RefStages.lean ====
/-
  The reference's stages as the entry-wise functions of the specification, each over the stages it reads:

  * the first product is `prod` of the features and the first weight matrix, the second of the first layer's output
    and the second weight matrix;
  * a layer's messages are `msg` of the gathered products and the two gathered degree factors (the reference multiplies
    the two factors as vectors and spreads the product along the lanes);
  * a layer's output is `comb` of the scattered messages, the products, the degree factor and the bias (the reference
    squares the factor as a vector, spreads it along the lanes, and adds the bias as a row spread down the rows);
  * the result is `pool` of the scattered sums, the scattered counts, the head's weights and its bias;
  * the degree factor is the entry-wise inverse square root of the degree;
  * the second layer gathers the degree factors again with the same indices: the same vectors.
-/
import proofs.«175368_j53214644797942_2_alg».proof.Proof.Gen.ReferenceIdeal.Read
import proofs.«175368_j53214644797942_2_alg».proof.Proof.Spec
import proofs.«175368_j53214644797942_2_alg».proof.Proof.Layout

noncomputable section

open scoped BigOperators

namespace Cert.ReferenceIdeal.Stages

open Cert.ReferenceIdeal Cert.ReferenceIdeal.Read Idealize.ShloMosaic Idealize.ShloMosaic.ValueIdx Cert.Gcn

/-- Two rank-1 indices with the same coordinate. -/
macro "idx_eq1" : tactic => `(tactic| (funext a; apply Fin.ext; match a with | ⟨0, _⟩ => rfl))
/-- Two rank-2 indices with the same coordinates. -/
macro "idx_eq2" : tactic => `(tactic| (funext a; apply Fin.ext; match a with | ⟨0, _⟩ => rfl | ⟨1, _⟩ => rfl))

/-- The degree factor: the inverse square root, entry by entry. -/
theorem dis_eq (x7 : (⟨S2x16000000, .i32⟩ : BufTy).Contents (Elt Ideal)) :
    val_main_v10 (F := Ideal) x7 = vecOf (arr2 (a := 500000) (b := 1) (rsq (colOf (val_main_v9 (F := Ideal) x7)))) := by
  funext i
  obtain ⟨p, rfl⟩ : ∃ p : Fin 500000, i = ix1 p := ⟨i 0, eq_ix1 i⟩
  rw [val_main_v10_apply, vecOf_ix1, arr2_ix2]
  unfold rsq
  rw [colOf_ix2]
  exact Ideal.hostUnary_rsqrt_def _

/-- The first layer's product. -/
theorem prod1_eq (x0 : (⟨S500000x2, .f32⟩ : BufTy).Contents (Elt Ideal)) (x1 : (⟨S2x16, .f32⟩ : BufTy).Contents (Elt Ideal)) :
    val_main_v11 (F := Ideal) x0 x1 = arr2 (a := 500000) (b := 16) (prod (k := 2) x0 x1) := by
  funext i
  obtain ⟨p, q, rfl⟩ : ∃ (p : Fin 500000) (q : Fin 16), i = ix2 p q := ⟨i 0, i 1, eq_ix2 i⟩
  rw [val_main_v11_apply]
  show _ = ∑ c : Fin 2, x0 (ix2 p c) * x1 (ix2 c q)
  refine Finset.sum_congr rfl fun c _ => ?_
  rw [show lidx_main_v11 (ix2 p q) c = ix2 p c from by idx_eq2, show ridx_main_v11 (ix2 p q) c = ix2 c q from by idx_eq2]

/-- The first layer's messages. -/
theorem msg1_eq (x0 : (⟨S500000x2, .f32⟩ : BufTy).Contents (Elt Ideal)) (x1 : (⟨S2x16, .f32⟩ : BufTy).Contents (Elt Ideal)) (x7 : (⟨S2x16000000, .i32⟩ : BufTy).Contents (Elt Ideal)) :
    val_main_v36 (F := Ideal) x0 x1 x7 = arr2 (a := 16000000) (b := 16)
      (msg (val_main_v33 (F := Ideal) x0 x1 x7) (colOf (val_main_v18 (F := Ideal) x7)) (colOf (val_main_v25 (F := Ideal) x7))) := by
  funext i
  obtain ⟨p, q, rfl⟩ : ∃ (p : Fin 16000000) (q : Fin 16), i = ix2 p q := ⟨i 0, i 1, eq_ix2 i⟩
  rw [val_main_v36_apply, val_main_v35_apply, val_main_v34_apply, val_main_v26_apply,
    show idx_main_v34 (idx_main_v35 (ix2 p q)) = ix1 p from by idx_eq1]
  rfl

/-- The first layer's output. -/
theorem comb1_eq (x0 : (⟨S500000x2, .f32⟩ : BufTy).Contents (Elt Ideal)) (x1 : (⟨S2x16, .f32⟩ : BufTy).Contents (Elt Ideal)) (x2 : (⟨S16, .f32⟩ : BufTy).Contents (Elt Ideal)) (x7 : (⟨S2x16000000, .i32⟩ : BufTy).Contents (Elt Ideal)) :
    val_main_v48 (F := Ideal) x0 x1 x2 x7 = arr2 (a := 500000) (b := 16)
      (comb (val_main_v39 (F := Ideal) x0 x1 x7) (val_main_v11 (F := Ideal) x0 x1) (colOf (val_main_v10 (F := Ideal) x7)) (rowOf x2)) := by
  funext i
  obtain ⟨p, q, rfl⟩ : ∃ (p : Fin 500000) (q : Fin 16), i = ix2 p q := ⟨i 0, i 1, eq_ix2 i⟩
  rw [val_main_v48_apply, val_main_v47_apply, val_main_v44_apply, val_main_v43_apply, val_main_v42_apply, val_main_v41_apply,
    val_main_v40_apply, val_main_v46_apply, val_main_v45_apply, val_main_call0_v0_apply, val_main_call0_cst_apply,
    show idx_main_v41 (idx_main_v42 (ix2 p q)) = ix1 p from by idx_eq1,
    show idx_main_v45 (idx_main_v46 (ix2 p q)) = ix1 q from by idx_eq1]
  rfl

/-- The second layer's product. -/
theorem prod2_eq (x0 : (⟨S500000x2, .f32⟩ : BufTy).Contents (Elt Ideal)) (x1 : (⟨S2x16, .f32⟩ : BufTy).Contents (Elt Ideal)) (x2 : (⟨S16, .f32⟩ : BufTy).Contents (Elt Ideal)) (x3 : (⟨S16x16, .f32⟩ : BufTy).Contents (Elt Ideal)) (x7 : (⟨S2x16000000, .i32⟩ : BufTy).Contents (Elt Ideal)) :
    val_main_v49 (F := Ideal) x0 x1 x2 x3 x7 = arr2 (a := 500000) (b := 16) (prod (k := 16) (val_main_v48 (F := Ideal) x0 x1 x2 x7) x3) := by
  funext i
  obtain ⟨p, q, rfl⟩ : ∃ (p : Fin 500000) (q : Fin 16), i = ix2 p q := ⟨i 0, i 1, eq_ix2 i⟩
  rw [val_main_v49_apply]
  show _ = ∑ c : Fin 16, (val_main_v48 (F := Ideal) x0 x1 x2 x7) (ix2 p c) * x3 (ix2 c q)
  refine Finset.sum_congr rfl fun c _ => ?_
  rw [show lidx_main_v49 (ix2 p q) c = ix2 p c from by idx_eq2, show ridx_main_v49 (ix2 p q) c = ix2 c q from by idx_eq2]

/-- The second layer gathers the source endpoints' degree factors with the same indices as the first. -/
theorem dsrc2_eq (x7 : (⟨S2x16000000, .i32⟩ : BufTy).Contents (Elt Ideal)) : val_main_v56 (F := Ideal) x7 = val_main_v18 (F := Ideal) x7 := by
  simp only [val_main_v56, val_main_v55, val_main_v54, val_main_v53, val_main_v52, val_main_v51, val_main_v50, val_main_c_8,
    val_main_c_9, val_main_v18, val_main_v17, val_main_v16, val_main_v15, val_main_v14, val_main_v13, val_main_v12, val_main_c,
    val_main_c_2]

/-- And the target endpoints'. -/
theorem ddst2_eq (x7 : (⟨S2x16000000, .i32⟩ : BufTy).Contents (Elt Ideal)) : val_main_v63 (F := Ideal) x7 = val_main_v25 (F := Ideal) x7 := by
  simp only [val_main_v63, val_main_v62, val_main_v61, val_main_v60, val_main_v59, val_main_v58, val_main_v57, val_main_c_10,
    val_main_c_11, val_main_v25, val_main_v24, val_main_v23, val_main_v22, val_main_v21, val_main_v20, val_main_v19, val_main_c_3,
    val_main_c_4]

/-- The second layer's messages. -/
theorem msg2_eq (x0 : (⟨S500000x2, .f32⟩ : BufTy).Contents (Elt Ideal)) (x1 : (⟨S2x16, .f32⟩ : BufTy).Contents (Elt Ideal)) (x2 : (⟨S16, .f32⟩ : BufTy).Contents (Elt Ideal)) (x3 : (⟨S16x16, .f32⟩ : BufTy).Contents (Elt Ideal)) (x7 : (⟨S2x16000000, .i32⟩ : BufTy).Contents (Elt Ideal)) :
    val_main_v74 (F := Ideal) x0 x1 x2 x3 x7 = arr2 (a := 16000000) (b := 16)
      (msg (val_main_v71 (F := Ideal) x0 x1 x2 x3 x7) (colOf (val_main_v18 (F := Ideal) x7)) (colOf (val_main_v25 (F := Ideal) x7))) := by
  funext i
  obtain ⟨p, q, rfl⟩ : ∃ (p : Fin 16000000) (q : Fin 16), i = ix2 p q := ⟨i 0, i 1, eq_ix2 i⟩
  rw [val_main_v74_apply, val_main_v73_apply, val_main_v72_apply, val_main_v64_apply, dsrc2_eq, ddst2_eq,
    show idx_main_v72 (idx_main_v73 (ix2 p q)) = ix1 p from by idx_eq1]
  rfl

/-- The second layer's output. -/
theorem comb2_eq (x0 : (⟨S500000x2, .f32⟩ : BufTy).Contents (Elt Ideal)) (x1 : (⟨S2x16, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (x7 : (⟨S2x16000000, .i32⟩ : BufTy).Contents (Elt Ideal)) :
    val_main_v86 (F := Ideal) x0 x1 x2 x3 x4 x7 = arr2 (a := 500000) (b := 16)
      (comb (val_main_v77 (F := Ideal) x0 x1 x2 x3 x7) (val_main_v49 (F := Ideal) x0 x1 x2 x3 x7) (colOf (val_main_v10 (F := Ideal) x7)) (rowOf x4)) := by
  funext i
  obtain ⟨p, q, rfl⟩ : ∃ (p : Fin 500000) (q : Fin 16), i = ix2 p q := ⟨i 0, i 1, eq_ix2 i⟩
  rw [val_main_v86_apply, val_main_v85_apply, val_main_v82_apply, val_main_v81_apply, val_main_v80_apply, val_main_v79_apply,
    val_main_v78_apply, val_main_v84_apply, val_main_v83_apply, val_main_call1_v0_apply, val_main_call1_cst_apply,
    show idx_main_v79 (idx_main_v80 (ix2 p q)) = ix1 p from by idx_eq1,
    show idx_main_v83 (idx_main_v84 (ix2 p q)) = ix1 q from by idx_eq1]
  rfl

/-- The result: the pooled rows through the head. -/
theorem pool_eq (x0 : (⟨S500000x2, .f32⟩ : BufTy).Contents (Elt Ideal)) (x1 : (⟨S2x16, .f32⟩ : BufTy).Contents (Elt Ideal)) (x2 : (⟨S16, .f32⟩ : BufTy).Contents (Elt Ideal)) (x3 : (⟨S16x16, .f32⟩ : BufTy).Contents (Elt Ideal)) (x4 : (⟨S16, .f32⟩ : BufTy).Contents (Elt Ideal)) (x5 : (⟨S16x1, .f32⟩ : BufTy).Contents (Elt Ideal)) (x6 : (⟨S1, .f32⟩ : BufTy).Contents (Elt Ideal)) (x7 : (⟨S2x16000000, .i32⟩ : BufTy).Contents (Elt Ideal)) (x8 : (⟨S500000, .i32⟩ : BufTy).Contents (Elt Ideal)) :
    val_main_v102 (F := Ideal) x0 x1 x2 x3 x4 x5 x6 x7 x8 = arr2 (a := 4096) (b := 1)
      (pool (k := 16) (val_main_v89 (F := Ideal) x0 x1 x2 x3 x4 x7 x8) (colOf (val_main_v93 (F := Ideal) x8)) x5 (rowOf x6)) := by
  funext i
  obtain ⟨p, q, rfl⟩ : ∃ (p : Fin 4096) (q : Fin 1), i = ix2 p q := ⟨i 0, i 1, eq_ix2 i⟩
  rw [val_main_v102_apply, val_main_v99_apply, val_main_v101_apply, val_main_v100_apply,
    show idx_main_v100 (idx_main_v101 (ix2 p q)) = ix1 q from by
      funext a; apply Fin.ext
      match a with
      | ⟨0, _⟩ => show (0 : ℕ) = q.val; omega]
  show (∑ c : Fin 16, _) + _ = (∑ c : Fin 16, _) + _
  refine congrArg (· + x6 (ix1 q)) (Finset.sum_congr rfl fun c _ => ?_)
  rw [show lidx_main_v99 (ix2 p q) c = ix2 p c from by idx_eq2, show ridx_main_v99 (ix2 p q) c = ix2 c q from by idx_eq2,
    val_main_v98_apply, val_main_v97_apply, val_main_v96_apply, val_main_v95_apply, val_main_v94_apply, val_main_cst_18_apply,
    show idx_main_v96 (idx_main_v97 (ix2 p c)) = ix1 p from by idx_eq1]
  rfl

end Cert.ReferenceIdeal.Stages

end
-- ==== Proof.Region4.lean ====
/-
  The second product call: a block of 5000 rows of the first layer's output times the whole second weight matrix.
  The call's output array after its grid has run is one entry-wise function of the arrays the call found: block t of
  the output is rows 5000·t … 5000·t + 4999, every input laid out by rows is read through the same rows, and the blocks cover
  the array.
-/
import proofs.«175368_j53214644797942_2_alg».proof.Proof.Gen.KernelIdeal.Frame
import proofs.«175368_j53214644797942_2_alg».proof.Proof.Tiles
import proofs.«175368_j53214644797942_2_alg».proof.Proof.Spec

set_option maxRecDepth 16384

noncomputable section

namespace Cert.KernelIdeal.Region4

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- The windows' block indices at a grid point, decided over the grid. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- The output array as one function of the arrays the call finds. -/
abbrev G (c : Dev nD) : S500000x16.Idx → EReal :=
  arr2 (a := 500000) (b := 16) (prod (a := 500000) (k := 16) (b := 16) (V c main_v43 : S500000x16.Idx → EReal) (V c main_arg3 : S16x16.Idx → EReal))

/-- What grid point t writes back is block t of that function. -/
theorem flushed_eq (c : Dev nD) (t : Fin cfg4.N) :
    (dat4 V c).flushed 2 t = ((cfg4.win 2).blk t).view.read (Elt Ideal) (G V c) := by
  show (cfg4.win 2).cut (grid4.coords t) ((dat4 V c).after 2 t) = _
  rw [after4_2]
  unfold out4_2
  rw [View.canon_unit_zero Tiles.hz]
  simp only [View.ld_unit_zero (S := S5000x16) Tiles.hz, View.ld_unit_zero (S := S16x16) Tiles.hz]
  funext j
  obtain ⟨p, q, rfl⟩ : ∃ (p : Fin 5000) (q : Fin 16), j = ix2 p q := ⟨j 0, j 1, eq_ix2 j⟩
  obtain ⟨e0, e1, e2, e3, e4, e5⟩ := idx_facts t
  have hN : t.val < 100 := Nat.lt_of_lt_of_eq t.isLt N_4
  have hP : 5000 * t.val + p.val < 500000 := by have := p.isLt; omega
  show k4_pay1 (iblk4 V c 0 t) (iblk4 V c 1 t) (ix2 p q) = G V c (((cfg4.win 2).blk t).view.emb (ix2 p q))
  refine (Tiles.prod2_tile (iblk4 V c 0 t) (iblk4 V c 1 t) p q).trans ?_
  refine (prod_rows (r := 5000) (a := 500000) (k := 16) (b := 16) (iblk4 V c 0 t) (V c main_v43 : S500000x16.Idx → EReal) (iblk4 V c 1 t) (V c main_arg3 : S16x16.Idx → EReal) p ⟨5000 * t.val + p.val, hP⟩ q ?_ ?_).trans ?_
  · intro cc
    show V c main_v43 (((cfg4.win 0).blk t).view.emb (ix2 p cc)) = V c main_v43 (ix2 ⟨5000 * t.val + p.val, hP⟩ cc)
    refine congrArg _ (funext fun a => Fin.ext ?_)
    match a with
    | ⟨0, _⟩ => show win4_0.index t (0 : Fin 2) * 5000 + 1 * p.val = 5000 * t.val + p.val; rw [e0]; omega
    | ⟨1, _⟩ => show win4_0.index t (1 : Fin 2) * 16 + 1 * cc.val = cc.val; rw [e1]; omega
  · intro cc
    show V c main_arg3 (((cfg4.win 1).blk t).view.emb (ix2 cc q)) = V c main_arg3 (ix2 cc q)
    refine congrArg _ (funext fun a => Fin.ext ?_)
    match a with
    | ⟨0, _⟩ => show win4_1.index t (0 : Fin 2) * 16 + 1 * cc.val = cc.val; rw [e2]; omega
    | ⟨1, _⟩ => show win4_1.index t (1 : Fin 2) * 16 + 1 * q.val = q.val; rw [e3]; omega
  · refine (arr2_of_val _ _ ⟨5000 * t.val + p.val, hP⟩ q ?_ ?_).symm
    · show win4_2.index t (0 : Fin 2) * 5000 + 1 * p.val = 5000 * t.val + p.val; rw [e4]; omega
    · show win4_2.index t (1 : Fin 2) * 16 + 1 * q.val = q.val; rw [e5]; omega

/-- An index is in point t's output block when each coordinate is in the block's range. -/
theorem mem_blk (t : Fin cfg4.N) (i : S500000x16.Idx) :
    i ∈ ((cfg4.win 2).blk t).view.set ↔ ∀ a : Fin 2, win4_2.index t a * S5000x16.size a ≤ (i a).val ∧ (i a).val < win4_2.index t a * S5000x16.size a + S5000x16.size a := by
  show i ∈ ((View.whole main_v44).slice (win4_2.rect t)).set ↔ _
  rw [View.set_slice_whole, Rect.mem_set_unit]
  exact Iff.rfl

/-- The output array after the call. -/
theorem arr (c : Dev nD) : (dat4 V c).arrAt 2 cfg4.N = G V c :=
  (dat4 V c).arrAt_eq_of_cover 2 (G V c) (fun t _ => flushed_eq V c t) fun i => by
    have hi0 : (i 0).val < 500000 := (i 0).isLt
    have hi1 : (i 1).val < 16 := (i 1).isLt
    have hN : cfg4.N = 100 := N_4
    refine ⟨⟨(i 0).val / 5000, by rw [hN]; omega⟩, flush4_2 _, ?_⟩
    rw [mem_blk]
    obtain ⟨e0, e1, e2, e3, e4, e5⟩ := idx_facts ⟨(i 0).val / 5000, by rw [hN]; omega⟩
    intro a
    match a with
    | ⟨0, _⟩ => show win4_2.index _ (0 : Fin 2) * 5000 ≤ (i 0).val ∧ (i 0).val < win4_2.index _ (0 : Fin 2) * 5000 + 5000; rw [e4]; show (i 0).val / 5000 * 5000 ≤ (i 0).val ∧ (i 0).val < (i 0).val / 5000 * 5000 + 5000; omega
    | ⟨1, _⟩ => show win4_2.index _ (1 : Fin 2) * 16 ≤ (i 1).val ∧ (i 1).val < win4_2.index _ (1 : Fin 2) * 16 + 16; rw [e5]; omega

end Cert.KernelIdeal.Region4

end
-- ==== Proof.Region5.lean ====
/-
  The second message call: a block of 5000 edges' gathered products scaled by the two gathered degree factors of the same edges.
  The call's output array after its grid has run is one entry-wise function of the arrays the call found: block t of
  the output is rows 5000·t … 5000·t + 4999, every input laid out by rows is read through the same rows, and the blocks cover
  the array.
-/
import proofs.«175368_j53214644797942_2_alg».proof.Proof.Gen.KernelIdeal.Frame
import proofs.«175368_j53214644797942_2_alg».proof.Proof.Tiles
import proofs.«175368_j53214644797942_2_alg».proof.Proof.Spec

set_option maxRecDepth 16384

noncomputable section

namespace Cert.KernelIdeal.Region5

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- The windows' block indices at a grid point, decided over the grid. -/
theorem idx_facts : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = t.val
    ∧ win5_3.index t (1 : Fin 2) = 0 :=
  (by decide +kernel : ∀ t : Fin grid5.N, _)

/-- The output array as one function of the arrays the call finds. -/
abbrev G (c : Dev nD) : S16000000x16.Idx → EReal :=
  arr2 (a := 16000000) (b := 16) (msg (a := 16000000) (b := 16) (V c main_v51 : S16000000x16.Idx → EReal) (V c main_v52 : S16000000x1.Idx → EReal) (V c main_v53 : S16000000x1.Idx → EReal))

/-- What grid point t writes back is block t of that function. -/
theorem flushed_eq (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3
  rw [View.canon_unit_zero Tiles.hz]
  simp only [View.ld_unit_zero (S := S5000x16) Tiles.hz, View.ld_unit_zero (S := S5000x1) Tiles.hz]
  funext j
  obtain ⟨p, q, rfl⟩ : ∃ (p : Fin 5000) (q : Fin 16), j = ix2 p q := ⟨j 0, j 1, eq_ix2 j⟩
  obtain ⟨e0, e1, e2, e3, e4, e5, e6, e7⟩ := idx_facts t
  have hN : t.val < 3200 := Nat.lt_of_lt_of_eq t.isLt N_5
  have hP : 5000 * t.val + p.val < 16000000 := by have := p.isLt; omega
  show k5_pay1 (iblk5 V c 1 t) (iblk5 V c 2 t) (iblk5 V c 0 t) (ix2 p q) = G V c (((cfg5.win 3).blk t).view.emb (ix2 p q))
  refine (Tiles.msg2_tile (iblk5 V c 1 t) (iblk5 V c 2 t) (iblk5 V c 0 t) p q).trans ?_
  refine (msg_rows (r := 5000) (a := 16000000) (b := 16) (iblk5 V c 0 t) (V c main_v51 : S16000000x16.Idx → EReal) (iblk5 V c 1 t) (iblk5 V c 2 t) (V c main_v52 : S16000000x1.Idx → EReal) (V c main_v53 : S16000000x1.Idx → EReal) p ⟨5000 * t.val + p.val, hP⟩ q ?_ ?_ ?_).trans ?_
  · show V c main_v51 (((cfg5.win 0).blk t).view.emb (ix2 p q)) = V c main_v51 (ix2 ⟨5000 * t.val + p.val, hP⟩ q)
    refine congrArg _ (funext fun a => Fin.ext ?_)
    match a with
    | ⟨0, _⟩ => show win5_0.index t (0 : Fin 2) * 5000 + 1 * p.val = 5000 * t.val + p.val; rw [e0]; omega
    | ⟨1, _⟩ => show win5_0.index t (1 : Fin 2) * 16 + 1 * q.val = q.val; rw [e1]; omega
  · show V c main_v52 (((cfg5.win 1).blk t).view.emb (ix2 p (0 : Fin 1))) = V c main_v52 (ix2 ⟨5000 * t.val + p.val, hP⟩ (0 : Fin 1))
    refine congrArg _ (funext fun a => Fin.ext ?_)
    match a with
    | ⟨0, _⟩ => show win5_1.index t (0 : Fin 2) * 5000 + 1 * p.val = 5000 * t.val + p.val; rw [e2]; omega
    | ⟨1, _⟩ => show win5_1.index t (1 : Fin 2) * 1 + 1 * (0 : Fin 1).val = (0 : Fin 1).val; rw [e3]; omega
  · show V c main_v53 (((cfg5.win 2).blk t).view.emb (ix2 p (0 : Fin 1))) = V c main_v53 (ix2 ⟨5000 * t.val + p.val, hP⟩ (0 : Fin 1))
    refine congrArg _ (funext fun a => Fin.ext ?_)
    match a with
    | ⟨0, _⟩ => show win5_2.index t (0 : Fin 2) * 5000 + 1 * p.val = 5000 * t.val + p.val; rw [e4]; omega
    | ⟨1, _⟩ => show win5_2.index t (1 : Fin 2) * 1 + 1 * (0 : Fin 1).val = (0 : Fin 1).val; rw [e5]; omega
  · refine (arr2_of_val _ _ ⟨5000 * t.val + p.val, hP⟩ q ?_ ?_).symm
    · show win5_3.index t (0 : Fin 2) * 5000 + 1 * p.val = 5000 * t.val + p.val; rw [e6]; omega
    · show win5_3.index t (1 : Fin 2) * 16 + 1 * q.val = q.val; rw [e7]; omega

/-- An index is in point t's output block when each coordinate is in the block's range. -/
theorem mem_blk (t : Fin cfg5.N) (i : S16000000x16.Idx) :
    i ∈ ((cfg5.win 3).blk t).view.set ↔ ∀ a : Fin 2, win5_3.index t a * S5000x16.size a ≤ (i a).val ∧ (i a).val < win5_3.index t a * S5000x16.size a + S5000x16.size a := by
  show i ∈ ((View.whole main_v54).slice (win5_3.rect t)).set ↔ _
  rw [View.set_slice_whole, Rect.mem_set_unit]
  exact Iff.rfl

/-- The output array after the call. -/
theorem arr (c : Dev nD) : (dat5 V c).arrAt 3 cfg5.N = G V c :=
  (dat5 V c).arrAt_eq_of_cover 3 (G V c) (fun t _ => flushed_eq V c t) fun i => by
    have hi0 : (i 0).val < 16000000 := (i 0).isLt
    have hi1 : (i 1).val < 16 := (i 1).isLt
    have hN : cfg5.N = 3200 := N_5
    refine ⟨⟨(i 0).val / 5000, by rw [hN]; omega⟩, flush5_3 _, ?_⟩
    rw [mem_blk]
    obtain ⟨e0, e1, e2, e3, e4, e5, e6, e7⟩ := idx_facts ⟨(i 0).val / 5000, by rw [hN]; omega⟩
    intro a
    match a with
    | ⟨0, _⟩ => show win5_3.index _ (0 : Fin 2) * 5000 ≤ (i 0).val ∧ (i 0).val < win5_3.index _ (0 : Fin 2) * 5000 + 5000; rw [e6]; show (i 0).val / 5000 * 5000 ≤ (i 0).val ∧ (i 0).val < (i 0).val / 5000 * 5000 + 5000; omega
    | ⟨1, _⟩ => show win5_3.index _ (1 : Fin 2) * 16 ≤ (i 1).val ∧ (i 1).val < win5_3.index _ (1 : Fin 2) * 16 + 16; rw [e7]; omega

end Cert.KernelIdeal.Region5

end
-- ==== Proof.Region2.lean ====
/-
  The first message call: a block of 5000 edges' gathered products scaled by the two gathered degree factors of the same edges.
  The call's output array after its grid has run is one entry-wise function of the arrays the call found: block t of
  the output is rows 5000·t … 5000·t + 4999, every input laid out by rows is read through the same rows, and the blocks cover
  the array.
-/
import proofs.«175368_j53214644797942_2_alg».proof.Proof.Gen.KernelIdeal.Frame
import proofs.«175368_j53214644797942_2_alg».proof.Proof.Tiles
import proofs.«175368_j53214644797942_2_alg».proof.Proof.Spec

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- The windows' block indices at a grid point, decided over the grid. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = t.val
    ∧ win2_3.index t (1 : Fin 2) = 0 :=
  (by decide +kernel : ∀ t : Fin grid2.N, _)

/-- The output array as one function of the arrays the call finds. -/
abbrev G (c : Dev nD) : S16000000x16.Idx → EReal :=
  arr2 (a := 16000000) (b := 16) (msg (a := 16000000) (b := 16) (V c main_v34 : S16000000x16.Idx → EReal) (V c main_v35 : S16000000x1.Idx → EReal) (V c main_v36 : S16000000x1.Idx → EReal))

/-- What grid point t writes back is block t of that function. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero Tiles.hz]
  simp only [View.ld_unit_zero (S := S5000x16) Tiles.hz, View.ld_unit_zero (S := S5000x1) Tiles.hz]
  funext j
  obtain ⟨p, q, rfl⟩ : ∃ (p : Fin 5000) (q : Fin 16), j = ix2 p q := ⟨j 0, j 1, eq_ix2 j⟩
  obtain ⟨e0, e1, e2, e3, e4, e5, e6, e7⟩ := idx_facts t
  have hN : t.val < 3200 := Nat.lt_of_lt_of_eq t.isLt N_2
  have hP : 5000 * t.val + p.val < 16000000 := by have := p.isLt; omega
  show k2_pay1 (iblk2 V c 1 t) (iblk2 V c 2 t) (iblk2 V c 0 t) (ix2 p q) = G V c (((cfg2.win 3).blk t).view.emb (ix2 p q))
  refine (Tiles.msg1_tile (iblk2 V c 1 t) (iblk2 V c 2 t) (iblk2 V c 0 t) p q).trans ?_
  refine (msg_rows (r := 5000) (a := 16000000) (b := 16) (iblk2 V c 0 t) (V c main_v34 : S16000000x16.Idx → EReal) (iblk2 V c 1 t) (iblk2 V c 2 t) (V c main_v35 : S16000000x1.Idx → EReal) (V c main_v36 : S16000000x1.Idx → EReal) p ⟨5000 * t.val + p.val, hP⟩ q ?_ ?_ ?_).trans ?_
  · show V c main_v34 (((cfg2.win 0).blk t).view.emb (ix2 p q)) = V c main_v34 (ix2 ⟨5000 * t.val + p.val, hP⟩ q)
    refine congrArg _ (funext fun a => Fin.ext ?_)
    match a with
    | ⟨0, _⟩ => show win2_0.index t (0 : Fin 2) * 5000 + 1 * p.val = 5000 * t.val + p.val; rw [e0]; omega
    | ⟨1, _⟩ => show win2_0.index t (1 : Fin 2) * 16 + 1 * q.val = q.val; rw [e1]; omega
  · show V c main_v35 (((cfg2.win 1).blk t).view.emb (ix2 p (0 : Fin 1))) = V c main_v35 (ix2 ⟨5000 * t.val + p.val, hP⟩ (0 : Fin 1))
    refine congrArg _ (funext fun a => Fin.ext ?_)
    match a with
    | ⟨0, _⟩ => show win2_1.index t (0 : Fin 2) * 5000 + 1 * p.val = 5000 * t.val + p.val; rw [e2]; omega
    | ⟨1, _⟩ => show win2_1.index t (1 : Fin 2) * 1 + 1 * (0 : Fin 1).val = (0 : Fin 1).val; rw [e3]; omega
  · show V c main_v36 (((cfg2.win 2).blk t).view.emb (ix2 p (0 : Fin 1))) = V c main_v36 (ix2 ⟨5000 * t.val + p.val, hP⟩ (0 : Fin 1))
    refine congrArg _ (funext fun a => Fin.ext ?_)
    match a with
    | ⟨0, _⟩ => show win2_2.index t (0 : Fin 2) * 5000 + 1 * p.val = 5000 * t.val + p.val; rw [e4]; omega
    | ⟨1, _⟩ => show win2_2.index t (1 : Fin 2) * 1 + 1 * (0 : Fin 1).val = (0 : Fin 1).val; rw [e5]; omega
  · refine (arr2_of_val _ _ ⟨5000 * t.val + p.val, hP⟩ q ?_ ?_).symm
    · show win2_3.index t (0 : Fin 2) * 5000 + 1 * p.val = 5000 * t.val + p.val; rw [e6]; omega
    · show win2_3.index t (1 : Fin 2) * 16 + 1 * q.val = q.val; rw [e7]; omega

/-- An index is in point t's output block when each coordinate is in the block's range. -/
theorem mem_blk (t : Fin cfg2.N) (i : S16000000x16.Idx) :
    i ∈ ((cfg2.win 3).blk t).view.set ↔ ∀ a : Fin 2, win2_3.index t a * S5000x16.size a ≤ (i a).val ∧ (i a).val < win2_3.index t a * S5000x16.size a + S5000x16.size a := by
  show i ∈ ((View.whole main_v37).slice (win2_3.rect t)).set ↔ _
  rw [View.set_slice_whole, Rect.mem_set_unit]
  exact Iff.rfl

/-- The output array after the call. -/
theorem arr (c : Dev nD) : (dat2 V c).arrAt 3 cfg2.N = G V c :=
  (dat2 V c).arrAt_eq_of_cover 3 (G V c) (fun t _ => flushed_eq V c t) fun i => by
    have hi0 : (i 0).val < 16000000 := (i 0).isLt
    have hi1 : (i 1).val < 16 := (i 1).isLt
    have hN : cfg2.N = 3200 := N_2
    refine ⟨⟨(i 0).val / 5000, by rw [hN]; omega⟩, flush2_3 _, ?_⟩
    rw [mem_blk]
    obtain ⟨e0, e1, e2, e3, e4, e5, e6, e7⟩ := idx_facts ⟨(i 0).val / 5000, by rw [hN]; omega⟩
    intro a
    match a with
    | ⟨0, _⟩ => show win2_3.index _ (0 : Fin 2) * 5000 ≤ (i 0).val ∧ (i 0).val < win2_3.index _ (0 : Fin 2) * 5000 + 5000; rw [e6]; show (i 0).val / 5000 * 5000 ≤ (i 0).val ∧ (i 0).val < (i 0).val / 5000 * 5000 + 5000; omega
    | ⟨1, _⟩ => show win2_3.index _ (1 : Fin 2) * 16 ≤ (i 1).val ∧ (i 1).val < win2_3.index _ (1 : Fin 2) * 16 + 16; rw [e7]; omega

end Cert.KernelIdeal.Region2

end
-- ==== Proof.Region3.lean ====
/-
  The first combine call: a block of 5000 nodes' aggregates plus their self-loop terms plus the bias row, clamped at zero.
  The call's output array after its grid has run is one entry-wise function of the arrays the call found: block t of
  the output is rows 5000·t … 5000·t + 4999, every input laid out by rows is read through the same rows, and the blocks cover
  the array.
-/
import proofs.«175368_j53214644797942_2_alg».proof.Proof.Gen.KernelIdeal.Frame
import proofs.«175368_j53214644797942_2_alg».proof.Proof.Tiles
import proofs.«175368_j53214644797942_2_alg».proof.Proof.Spec

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- The windows' block indices at a grid point, decided over the grid. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

/-- The output array as one function of the arrays the call finds. -/
abbrev G (c : Dev nD) : S500000x16.Idx → EReal :=
  arr2 (a := 500000) (b := 16) (comb (a := 500000) (b := 16) (V c main_v40 : S500000x16.Idx → EReal) (V c main_v27 : S500000x16.Idx → EReal) (V c main_v41 : S500000x1.Idx → EReal) (V c main_v42 : S1x16.Idx → EReal))

/-- What grid point t writes back is block t of that function. -/
theorem flushed_eq (c : Dev nD) (t : Fin cfg3.N) :
    (dat3 V c).flushed 4 t = ((cfg3.win 4).blk t).view.read (Elt Ideal) (G V c) := by
  show (cfg3.win 4).cut (grid3.coords t) ((dat3 V c).after 4 t) = _
  rw [after3_4]
  unfold out3_4
  rw [View.canon_unit_zero Tiles.hz]
  simp only [View.ld_unit_zero (S := S5000x16) Tiles.hz, View.ld_unit_zero (S := S5000x1) Tiles.hz, View.ld_unit_zero (S := S1x16) Tiles.hz]
  funext j
  obtain ⟨p, q, rfl⟩ : ∃ (p : Fin 5000) (q : Fin 16), j = ix2 p q := ⟨j 0, j 1, eq_ix2 j⟩
  obtain ⟨e0, e1, e2, e3, e4, e5, e6, e7, e8, e9⟩ := idx_facts t
  have hN : t.val < 100 := Nat.lt_of_lt_of_eq t.isLt N_3
  have hP : 5000 * t.val + p.val < 500000 := by have := p.isLt; omega
  show k3_pay1 (iblk3 V c 1 t) (iblk3 V c 2 t) (iblk3 V c 2 t) (iblk3 V c 0 t) (iblk3 V c 3 t) (ix2 p q) = G V c (((cfg3.win 4).blk t).view.emb (ix2 p q))
  refine (Tiles.comb1_tile (iblk3 V c 1 t) (iblk3 V c 2 t) (iblk3 V c 0 t) (iblk3 V c 3 t) p q).trans ?_
  refine (comb_rows (r := 5000) (a := 500000) (b := 16) (iblk3 V c 0 t) (iblk3 V c 1 t) (V c main_v40 : S500000x16.Idx → EReal) (V c main_v27 : S500000x16.Idx → EReal) (iblk3 V c 2 t) (V c main_v41 : S500000x1.Idx → EReal) (iblk3 V c 3 t) (V c main_v42 : S1x16.Idx → EReal) p ⟨5000 * t.val + p.val, hP⟩ q ?_ ?_ ?_ ?_).trans ?_
  · show V c main_v40 (((cfg3.win 0).blk t).view.emb (ix2 p q)) = V c main_v40 (ix2 ⟨5000 * t.val + p.val, hP⟩ q)
    refine congrArg _ (funext fun a => Fin.ext ?_)
    match a with
    | ⟨0, _⟩ => show win3_0.index t (0 : Fin 2) * 5000 + 1 * p.val = 5000 * t.val + p.val; rw [e0]; omega
    | ⟨1, _⟩ => show win3_0.index t (1 : Fin 2) * 16 + 1 * q.val = q.val; rw [e1]; omega
  · show V c main_v27 (((cfg3.win 1).blk t).view.emb (ix2 p q)) = V c main_v27 (ix2 ⟨5000 * t.val + p.val, hP⟩ q)
    refine congrArg _ (funext fun a => Fin.ext ?_)
    match a with
    | ⟨0, _⟩ => show win3_1.index t (0 : Fin 2) * 5000 + 1 * p.val = 5000 * t.val + p.val; rw [e2]; omega
    | ⟨1, _⟩ => show win3_1.index t (1 : Fin 2) * 16 + 1 * q.val = q.val; rw [e3]; omega
  · show V c main_v41 (((cfg3.win 2).blk t).view.emb (ix2 p (0 : Fin 1))) = V c main_v41 (ix2 ⟨5000 * t.val + p.val, hP⟩ (0 : Fin 1))
    refine congrArg _ (funext fun a => Fin.ext ?_)
    match a with
    | ⟨0, _⟩ => show win3_2.index t (0 : Fin 2) * 5000 + 1 * p.val = 5000 * t.val + p.val; rw [e4]; omega
    | ⟨1, _⟩ => show win3_2.index t (1 : Fin 2) * 1 + 1 * (0 : Fin 1).val = (0 : Fin 1).val; rw [e5]; omega
  · show V c main_v42 (((cfg3.win 3).blk t).view.emb (ix2 (0 : Fin 1) q)) = V c main_v42 (ix2 (0 : Fin 1) q)
    refine congrArg _ (funext fun a => Fin.ext ?_)
    match a with
    | ⟨0, _⟩ => show win3_3.index t (0 : Fin 2) * 1 + 1 * (0 : Fin 1).val = (0 : Fin 1).val; rw [e6]; omega
    | ⟨1, _⟩ => show win3_3.index t (1 : Fin 2) * 16 + 1 * q.val = q.val; rw [e7]; omega
  · refine (arr2_of_val _ _ ⟨5000 * t.val + p.val, hP⟩ q ?_ ?_).symm
    · show win3_4.index t (0 : Fin 2) * 5000 + 1 * p.val = 5000 * t.val + p.val; rw [e8]; omega
    · show win3_4.index t (1 : Fin 2) * 16 + 1 * q.val = q.val; rw [e9]; omega

/-- An index is in point t's output block when each coordinate is in the block's range. -/
theorem mem_blk (t : Fin cfg3.N) (i : S500000x16.Idx) :
    i ∈ ((cfg3.win 4).blk t).view.set ↔ ∀ a : Fin 2, win3_4.index t a * S5000x16.size a ≤ (i a).val ∧ (i a).val < win3_4.index t a * S5000x16.size a + S5000x16.size a := by
  show i ∈ ((View.whole main_v43).slice (win3_4.rect t)).set ↔ _
  rw [View.set_slice_whole, Rect.mem_set_unit]
  exact Iff.rfl

/-- The output array after the call. -/
theorem arr (c : Dev nD) : (dat3 V c).arrAt 4 cfg3.N = G V c :=
  (dat3 V c).arrAt_eq_of_cover 4 (G V c) (fun t _ => flushed_eq V c t) fun i => by
    have hi0 : (i 0).val < 500000 := (i 0).isLt
    have hi1 : (i 1).val < 16 := (i 1).isLt
    have hN : cfg3.N = 100 := N_3
    refine ⟨⟨(i 0).val / 5000, by rw [hN]; omega⟩, flush3_4 _, ?_⟩
    rw [mem_blk]
    obtain ⟨e0, e1, e2, e3, e4, e5, e6, e7, e8, e9⟩ := idx_facts ⟨(i 0).val / 5000, by rw [hN]; omega⟩
    intro a
    match a with
    | ⟨0, _⟩ => show win3_4.index _ (0 : Fin 2) * 5000 ≤ (i 0).val ∧ (i 0).val < win3_4.index _ (0 : Fin 2) * 5000 + 5000; rw [e8]; show (i 0).val / 5000 * 5000 ≤ (i 0).val ∧ (i 0).val < (i 0).val / 5000 * 5000 + 5000; omega
    | ⟨1, _⟩ => show win3_4.index _ (1 : Fin 2) * 16 ≤ (i 1).val ∧ (i 1).val < win3_4.index _ (1 : Fin 2) * 16 + 16; rw [e9]; omega

end Cert.KernelIdeal.Region3

end
-- ==== Proof.Region0.lean ====
/-
  The degree call: every block of 5000 rows of the degree column is replaced by its entry-wise inverse square root, so the whole column is.
  The call's output array after its grid has run is one entry-wise function of the arrays the call found: block t of
  the output is rows 5000·t … 5000·t + 4999, every input laid out by rows is read through the same rows, and the blocks cover
  the array.
-/
import proofs.«175368_j53214644797942_2_alg».proof.Proof.Gen.KernelIdeal.Frame
import proofs.«175368_j53214644797942_2_alg».proof.Proof.Tiles
import proofs.«175368_j53214644797942_2_alg».proof.Proof.Spec

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- The windows' block indices at a grid point, decided over the grid. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0 :=
  (by decide +kernel : ∀ t : Fin grid0.N, _)

/-- The output array as one function of the arrays the call finds. -/
abbrev G (c : Dev nD) : S500000x1.Idx → EReal :=
  arr2 (a := 500000) (b := 1) (rsq (a := 500000) (V c main_v10 : S500000x1.Idx → EReal))

/-- What grid point t writes back is block t of that function. -/
theorem flushed_eq (c : Dev nD) (t : Fin cfg0.N) :
    (dat0 V c).flushed 1 t = ((cfg0.win 1).blk t).view.read (Elt Ideal) (G V c) := by
  show (cfg0.win 1).cut (grid0.coords t) ((dat0 V c).after 1 t) = _
  rw [after0_1]
  unfold out0_1
  rw [View.canon_unit_zero Tiles.hz]
  simp only [View.ld_unit_zero (S := S5000x1) Tiles.hz]
  funext j
  obtain ⟨p, q, rfl⟩ : ∃ (p : Fin 5000) (q : Fin 1), j = ix2 p q := ⟨j 0, j 1, eq_ix2 j⟩
  obtain ⟨e0, e1, e2, e3⟩ := idx_facts t
  have hN : t.val < 100 := Nat.lt_of_lt_of_eq t.isLt N_0
  have hP : 5000 * t.val + p.val < 500000 := by have := p.isLt; omega
  show k0_pay1 (iblk0 V c 0 t) (ix2 p q) = G V c (((cfg0.win 1).blk t).view.emb (ix2 p q))
  refine (Tiles.deg_tile (iblk0 V c 0 t) p q).trans ?_
  refine (rsq_rows (r := 5000) (a := 500000) (iblk0 V c 0 t) (V c main_v10 : S500000x1.Idx → EReal) p ⟨5000 * t.val + p.val, hP⟩ q ?_).trans ?_
  · show V c main_v10 (((cfg0.win 0).blk t).view.emb (ix2 p (0 : Fin 1))) = V c main_v10 (ix2 ⟨5000 * t.val + p.val, hP⟩ (0 : Fin 1))
    refine congrArg _ (funext fun a => Fin.ext ?_)
    match a with
    | ⟨0, _⟩ => show win0_0.index t (0 : Fin 2) * 5000 + 1 * p.val = 5000 * t.val + p.val; rw [e0]; omega
    | ⟨1, _⟩ => show win0_0.index t (1 : Fin 2) * 1 + 1 * (0 : Fin 1).val = (0 : Fin 1).val; rw [e1]; omega
  · refine (arr2_of_val _ _ ⟨5000 * t.val + p.val, hP⟩ q ?_ ?_).symm
    · show win0_1.index t (0 : Fin 2) * 5000 + 1 * p.val = 5000 * t.val + p.val; rw [e2]; omega
    · show win0_1.index t (1 : Fin 2) * 1 + 1 * q.val = q.val; rw [e3]; omega

/-- An index is in point t's output block when each coordinate is in the block's range. -/
theorem mem_blk (t : Fin cfg0.N) (i : S500000x1.Idx) :
    i ∈ ((cfg0.win 1).blk t).view.set ↔ ∀ a : Fin 2, win0_1.index t a * S5000x1.size a ≤ (i a).val ∧ (i a).val < win0_1.index t a * S5000x1.size a + S5000x1.size a := by
  show i ∈ ((View.whole main_v11).slice (win0_1.rect t)).set ↔ _
  rw [View.set_slice_whole, Rect.mem_set_unit]
  exact Iff.rfl

/-- The output array after the call. -/
theorem arr (c : Dev nD) : (dat0 V c).arrAt 1 cfg0.N = G V c :=
  (dat0 V c).arrAt_eq_of_cover 1 (G V c) (fun t _ => flushed_eq V c t) fun i => by
    have hi0 : (i 0).val < 500000 := (i 0).isLt
    have hi1 : (i 1).val < 1 := (i 1).isLt
    have hN : cfg0.N = 100 := N_0
    refine ⟨⟨(i 0).val / 5000, by rw [hN]; omega⟩, flush0_1 _, ?_⟩
    rw [mem_blk]
    obtain ⟨e0, e1, e2, e3⟩ := idx_facts ⟨(i 0).val / 5000, by rw [hN]; omega⟩
    intro a
    match a with
    | ⟨0, _⟩ => show win0_1.index _ (0 : Fin 2) * 5000 ≤ (i 0).val ∧ (i 0).val < win0_1.index _ (0 : Fin 2) * 5000 + 5000; rw [e2]; show (i 0).val / 5000 * 5000 ≤ (i 0).val ∧ (i 0).val < (i 0).val / 5000 * 5000 + 5000; omega
    | ⟨1, _⟩ => show win0_1.index _ (1 : Fin 2) * 1 ≤ (i 1).val ∧ (i 1).val < win0_1.index _ (1 : Fin 2) * 1 + 1; rw [e3]; omega

end Cert.KernelIdeal.Region0

end
-- ==== Proof.Region1.lean ====
/-
  The first product call: a block of 5000 rows of the features times the whole first weight matrix is the matching rows of the product.
  The call's output array after its grid has run is one entry-wise function of the arrays the call found: block t of
  the output is rows 5000·t … 5000·t + 4999, every input laid out by rows is read through the same rows, and the blocks cover
  the array.
-/
import proofs.«175368_j53214644797942_2_alg».proof.Proof.Gen.KernelIdeal.Frame
import proofs.«175368_j53214644797942_2_alg».proof.Proof.Tiles
import proofs.«175368_j53214644797942_2_alg».proof.Proof.Spec

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

/-- The windows' block indices at a grid point, decided over the grid. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The output array as one function of the arrays the call finds. -/
abbrev G (c : Dev nD) : S500000x16.Idx → EReal :=
  arr2 (a := 500000) (b := 16) (prod (a := 500000) (k := 2) (b := 16) (V c main_arg0 : S500000x2.Idx → EReal) (V c main_arg1 : S2x16.Idx → EReal))

/-- What grid point t writes back is block t of that function. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero Tiles.hz]
  simp only [View.ld_unit_zero (S := S5000x2) Tiles.hz, View.ld_unit_zero (S := S2x16) Tiles.hz]
  funext j
  obtain ⟨p, q, rfl⟩ : ∃ (p : Fin 5000) (q : Fin 16), j = ix2 p q := ⟨j 0, j 1, eq_ix2 j⟩
  obtain ⟨e0, e1, e2, e3, e4, e5⟩ := idx_facts t
  have hN : t.val < 100 := Nat.lt_of_lt_of_eq t.isLt N_1
  have hP : 5000 * t.val + p.val < 500000 := by have := p.isLt; omega
  show k1_pay1 (iblk1 V c 0 t) (iblk1 V c 1 t) (ix2 p q) = G V c (((cfg1.win 2).blk t).view.emb (ix2 p q))
  refine (Tiles.prod1_tile (iblk1 V c 0 t) (iblk1 V c 1 t) p q).trans ?_
  refine (prod_rows (r := 5000) (a := 500000) (k := 2) (b := 16) (iblk1 V c 0 t) (V c main_arg0 : S500000x2.Idx → EReal) (iblk1 V c 1 t) (V c main_arg1 : S2x16.Idx → EReal) p ⟨5000 * t.val + p.val, hP⟩ q ?_ ?_).trans ?_
  · intro cc
    show V c main_arg0 (((cfg1.win 0).blk t).view.emb (ix2 p cc)) = V c main_arg0 (ix2 ⟨5000 * t.val + p.val, hP⟩ cc)
    refine congrArg _ (funext fun a => Fin.ext ?_)
    match a with
    | ⟨0, _⟩ => show win1_0.index t (0 : Fin 2) * 5000 + 1 * p.val = 5000 * t.val + p.val; rw [e0]; omega
    | ⟨1, _⟩ => show win1_0.index t (1 : Fin 2) * 2 + 1 * cc.val = cc.val; rw [e1]; omega
  · intro cc
    show V c main_arg1 (((cfg1.win 1).blk t).view.emb (ix2 cc q)) = V c main_arg1 (ix2 cc q)
    refine congrArg _ (funext fun a => Fin.ext ?_)
    match a with
    | ⟨0, _⟩ => show win1_1.index t (0 : Fin 2) * 2 + 1 * cc.val = cc.val; rw [e2]; omega
    | ⟨1, _⟩ => show win1_1.index t (1 : Fin 2) * 16 + 1 * q.val = q.val; rw [e3]; omega
  · refine (arr2_of_val _ _ ⟨5000 * t.val + p.val, hP⟩ q ?_ ?_).symm
    · show win1_2.index t (0 : Fin 2) * 5000 + 1 * p.val = 5000 * t.val + p.val; rw [e4]; omega
    · show win1_2.index t (1 : Fin 2) * 16 + 1 * q.val = q.val; rw [e5]; omega

/-- An index is in point t's output block when each coordinate is in the block's range. -/
theorem mem_blk (t : Fin cfg1.N) (i : S500000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v27).slice (win1_2.rect t)).set ↔ _
  rw [View.set_slice_whole, Rect.mem_set_unit]
  exact Iff.rfl

/-- The output array after the call. -/
theorem arr (c : Dev nD) : (dat1 V c).arrAt 2 cfg1.N = G V c :=
  (dat1 V c).arrAt_eq_of_cover 2 (G V c) (fun t _ => flushed_eq V c t) fun i => by
    have hi0 : (i 0).val < 500000 := (i 0).isLt
    have hi1 : (i 1).val < 16 := (i 1).isLt
    have hN : cfg1.N = 100 := N_1
    refine ⟨⟨(i 0).val / 5000, by rw [hN]; omega⟩, flush1_2 _, ?_⟩
    rw [mem_blk]
    obtain ⟨e0, e1, e2, e3, e4, e5⟩ := idx_facts ⟨(i 0).val / 5000, by rw [hN]; omega⟩
    intro a
    match a with
    | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
    | ⟨1, _⟩ => show win1_2.index _ (1 : Fin 2) * 16 ≤ (i 1).val ∧ (i 1).val < win1_2.index _ (1 : Fin 2) * 16 + 16; rw [e5]; omega

end Cert.KernelIdeal.Region1

end
-- ==== Proof.LevelsA.lean ====
/-
  The contents of the kernel program's buffers between its host stretches and its pallas_calls, from the launch through the first product call:
  each buffer a later step reads holds the value of the reference's matching stage — the edge endpoints, the degree
  factor and its two gathered copies, the products, messages, aggregates and layer outputs. A host stretch applies the
  same operations the reference applies to equal operands; a call's output is the entry-wise function its blocks
  compute, which is the reference's stage by the stage equations; a buffer nothing writes keeps its value.
-/
import proofs.«175368_j53214644797942_2_alg».proof.Proof.Gen.KernelIdeal.Frame
import proofs.«175368_j53214644797942_2_alg».proof.Proof.Region0
import proofs.«175368_j53214644797942_2_alg».proof.Proof.Region1
import proofs.«175368_j53214644797942_2_alg».proof.Proof.RefStages
import proofs.«175368_j53214644797942_2_alg».proof.Proof.Layout
import Idealize.ShloMosaic.Lib.StableHlo.Run

set_option maxRecDepth 16384

noncomputable section

namespace Cert.KernelIdeal.Levels

open Cert.KernelIdeal Cert.KernelIdeal.Gen Idealize.ShloMosaic Idealize.ShloMosaic.TcCoe Idealize.SL.Sem
open Idealize.ShloMosaic.StableHlo Idealize.ShloMosaic.ValueIdx Cert.Gcn
open Cert.ReferenceIdeal.Read Cert.ReferenceIdeal.Stages

variable (m : (ℓ : Loc nD τ sig) → Buf (Elt Ideal) ℓ) (ρ : Dev nD → PrngReg) (c : Dev nD)

/-! ## Valuation 0 -/

theorem L0_arg0 : W0 m ρ c (Proc.devRef .tc main_arg0) = m ((c : Thread nD τ).loc main_arg0) := rfl

theorem L0_arg1 : W0 m ρ c (Proc.devRef .tc main_arg1) = m ((c : Thread nD τ).loc main_arg1) := rfl

theorem L0_arg2 : W0 m ρ c (Proc.devRef .tc main_arg2) = m ((c : Thread nD τ).loc main_arg2) := rfl

theorem L0_arg3 : W0 m ρ c (Proc.devRef .tc main_arg3) = m ((c : Thread nD τ).loc main_arg3) := rfl

theorem L0_arg4 : W0 m ρ c (Proc.devRef .tc main_arg4) = m ((c : Thread nD τ).loc main_arg4) := rfl

theorem L0_arg5 : W0 m ρ c (Proc.devRef .tc main_arg5) = m ((c : Thread nD τ).loc main_arg5) := rfl

theorem L0_arg6 : W0 m ρ c (Proc.devRef .tc main_arg6) = m ((c : Thread nD τ).loc main_arg6) := rfl

theorem L0_arg8 : W0 m ρ c (Proc.devRef .tc main_arg8) = m ((c : Thread nD τ).loc main_arg8) := rfl

/-! ## Valuation 1 -/

theorem L1_arg0 : W1 m ρ c (Proc.devRef .tc main_arg0) = m ((c : Thread nD τ).loc main_arg0) := by
  show StableHlo.after hostOps0 (W0 m ρ c) (Proc.devRef .tc main_arg0) = _
  after_results_simp
  all_goals exact L0_arg0 m ρ c

theorem L1_arg1 : W1 m ρ c (Proc.devRef .tc main_arg1) = m ((c : Thread nD τ).loc main_arg1) := by
  show StableHlo.after hostOps0 (W0 m ρ c) (Proc.devRef .tc main_arg1) = _
  after_results_simp
  all_goals exact L0_arg1 m ρ c

theorem L1_arg2 : W1 m ρ c (Proc.devRef .tc main_arg2) = m ((c : Thread nD τ).loc main_arg2) := by
  show StableHlo.after hostOps0 (W0 m ρ c) (Proc.devRef .tc main_arg2) = _
  after_results_simp
  all_goals exact L0_arg2 m ρ c

theorem L1_arg3 : W1 m ρ c (Proc.devRef .tc main_arg3) = m ((c : Thread nD τ).loc main_arg3) := by
  show StableHlo.after hostOps0 (W0 m ρ c) (Proc.devRef .tc main_arg3) = _
  after_results_simp
  all_goals exact L0_arg3 m ρ c

theorem L1_arg4 : W1 m ρ c (Proc.devRef .tc main_arg4) = m ((c : Thread nD τ).loc main_arg4) := by
  show StableHlo.after hostOps0 (W0 m ρ c) (Proc.devRef .tc main_arg4) = _
  after_results_simp
  all_goals exact L0_arg4 m ρ c

theorem L1_arg5 : W1 m ρ c (Proc.devRef .tc main_arg5) = m ((c : Thread nD τ).loc main_arg5) := by
  show StableHlo.after hostOps0 (W0 m ρ c) (Proc.devRef .tc main_arg5) = _
  after_results_simp
  all_goals exact L0_arg5 m ρ c

theorem L1_arg6 : W1 m ρ c (Proc.devRef .tc main_arg6) = m ((c : Thread nD τ).loc main_arg6) := by
  show StableHlo.after hostOps0 (W0 m ρ c) (Proc.devRef .tc main_arg6) = _
  after_results_simp
  all_goals exact L0_arg6 m ρ c

theorem L1_arg8 : W1 m ρ c (Proc.devRef .tc main_arg8) = m ((c : Thread nD τ).loc main_arg8) := by
  show StableHlo.after hostOps0 (W0 m ρ c) (Proc.devRef .tc main_arg8) = _
  after_results_simp
  all_goals exact L0_arg8 m ρ c

theorem L1_v1 : W1 m ρ c (Proc.devRef .tc main_v1) = val_main_v1 (F := Ideal) (m ((c : Thread nD τ).loc main_arg7)) := by
  show StableHlo.after hostOps0 (W0 m ρ c) (Proc.devRef .tc main_v1) = _
  after_results_simp
  simp only [val_main_v1, val_main_v0]
  rfl

theorem L1_v3 : W1 m ρ c (Proc.devRef .tc main_v3) = val_main_v3 (F := Ideal) (m ((c : Thread nD τ).loc main_arg7)) := by
  show StableHlo.after hostOps0 (W0 m ρ c) (Proc.devRef .tc main_v3) = _
  after_results_simp
  simp only [val_main_v3, val_main_v2]
  rfl

theorem L1_v10 : W1 m ρ c (Proc.devRef .tc main_v10)
    = shapeCast S500000x1 (val_main_v9 (F := Ideal) (m ((c : Thread nD τ).loc main_arg7))) shapeCasts_S500000_S500000x1 := by
  show StableHlo.after hostOps0 (W0 m ρ c) (Proc.devRef .tc main_v10) = _
  after_results_simp
  simp only [val_main_v9, val_main_v8, val_main_v7, val_main_v6, val_main_v5, val_main_v4, val_main_v3, val_main_v2,
    val_main_cst, val_main_cst_0, val_main_cst_1]
  rfl

/-! ## Valuation 2 -/

theorem L2_v1 : W2 m ρ c (Proc.devRef .tc main_v1) = val_main_v1 (F := Ideal) (m ((c : Thread nD τ).loc main_arg7)) :=
  (W2_of_ne m ρ c main_v1 (by decide)).trans (L1_v1 m ρ c)

theorem L2_v3 : W2 m ρ c (Proc.devRef .tc main_v3) = val_main_v3 (F := Ideal) (m ((c : Thread nD τ).loc main_arg7)) :=
  (W2_of_ne m ρ c main_v3 (by decide)).trans (L1_v3 m ρ c)

theorem L2_arg0 : W2 m ρ c (Proc.devRef .tc main_arg0) = m ((c : Thread nD τ).loc main_arg0) :=
  (W2_of_ne m ρ c main_arg0 (by decide)).trans (L1_arg0 m ρ c)

theorem L2_arg1 : W2 m ρ c (Proc.devRef .tc main_arg1) = m ((c : Thread nD τ).loc main_arg1) :=
  (W2_of_ne m ρ c main_arg1 (by decide)).trans (L1_arg1 m ρ c)

theorem L2_arg2 : W2 m ρ c (Proc.devRef .tc main_arg2) = m ((c : Thread nD τ).loc main_arg2) :=
  (W2_of_ne m ρ c main_arg2 (by decide)).trans (L1_arg2 m ρ c)

theorem L2_arg3 : W2 m ρ c (Proc.devRef .tc main_arg3) = m ((c : Thread nD τ).loc main_arg3) :=
  (W2_of_ne m ρ c main_arg3 (by decide)).trans (L1_arg3 m ρ c)

theorem L2_arg4 : W2 m ρ c (Proc.devRef .tc main_arg4) = m ((c : Thread nD τ).loc main_arg4) :=
  (W2_of_ne m ρ c main_arg4 (by decide)).trans (L1_arg4 m ρ c)

theorem L2_arg5 : W2 m ρ c (Proc.devRef .tc main_arg5) = m ((c : Thread nD τ).loc main_arg5) :=
  (W2_of_ne m ρ c main_arg5 (by decide)).trans (L1_arg5 m ρ c)

theorem L2_arg6 : W2 m ρ c (Proc.devRef .tc main_arg6) = m ((c : Thread nD τ).loc main_arg6) :=
  (W2_of_ne m ρ c main_arg6 (by decide)).trans (L1_arg6 m ρ c)

theorem L2_arg8 : W2 m ρ c (Proc.devRef .tc main_arg8) = m ((c : Thread nD τ).loc main_arg8) :=
  (W2_of_ne m ρ c main_arg8 (by decide)).trans (L1_arg8 m ρ c)

/-- The degree call leaves the entry-wise inverse square root of the degree column. -/
theorem L2_v11 : W2 m ρ c (Proc.devRef .tc main_v11)
    = arr2 (a := 500000) (b := 1) (rsq (colOf (val_main_v9 (F := Ideal) (m ((c : Thread nD τ).loc main_arg7))))) := by
  refine (W2_arr m ρ c 1).trans ((Region0.arr (V1 m ρ) c).trans ?_)
  exact congr_fn1 (fun d => arr2 (a := 500000) (b := 1) (rsq d)) ((L1_v10 m ρ c).trans (shapeCast_col _ _))

/-! ## Valuation 3 -/

theorem L3_v1 : W3 m ρ c (Proc.devRef .tc main_v1) = val_main_v1 (F := Ideal) (m ((c : Thread nD τ).loc main_arg7)) := by
  show StableHlo.after hostOps1 (W2 m ρ c) (Proc.devRef .tc main_v1) = _
  after_results_simp
  all_goals exact L2_v1 m ρ c

theorem L3_v3 : W3 m ρ c (Proc.devRef .tc main_v3) = val_main_v3 (F := Ideal) (m ((c : Thread nD τ).loc main_arg7)) := by
  show StableHlo.after hostOps1 (W2 m ρ c) (Proc.devRef .tc main_v3) = _
  after_results_simp
  all_goals exact L2_v3 m ρ c

theorem L3_arg0 : W3 m ρ c (Proc.devRef .tc main_arg0) = m ((c : Thread nD τ).loc main_arg0) := by
  show StableHlo.after hostOps1 (W2 m ρ c) (Proc.devRef .tc main_arg0) = _
  after_results_simp
  all_goals exact L2_arg0 m ρ c

theorem L3_arg1 : W3 m ρ c (Proc.devRef .tc main_arg1) = m ((c : Thread nD τ).loc main_arg1) := by
  show StableHlo.after hostOps1 (W2 m ρ c) (Proc.devRef .tc main_arg1) = _
  after_results_simp
  all_goals exact L2_arg1 m ρ c

theorem L3_arg2 : W3 m ρ c (Proc.devRef .tc main_arg2) = m ((c : Thread nD τ).loc main_arg2) := by
  show StableHlo.after hostOps1 (W2 m ρ c) (Proc.devRef .tc main_arg2) = _
  after_results_simp
  all_goals exact L2_arg2 m ρ c

theorem L3_arg3 : W3 m ρ c (Proc.devRef .tc main_arg3) = m ((c : Thread nD τ).loc main_arg3) := by
  show StableHlo.after hostOps1 (W2 m ρ c) (Proc.devRef .tc main_arg3) = _
  after_results_simp
  all_goals exact L2_arg3 m ρ c

theorem L3_arg4 : W3 m ρ c (Proc.devRef .tc main_arg4) = m ((c : Thread nD τ).loc main_arg4) := by
  show StableHlo.after hostOps1 (W2 m ρ c) (Proc.devRef .tc main_arg4) = _
  after_results_simp
  all_goals exact L2_arg4 m ρ c

theorem L3_arg5 : W3 m ρ c (Proc.devRef .tc main_arg5) = m ((c : Thread nD τ).loc main_arg5) := by
  show StableHlo.after hostOps1 (W2 m ρ c) (Proc.devRef .tc main_arg5) = _
  after_results_simp
  all_goals exact L2_arg5 m ρ c

theorem L3_arg6 : W3 m ρ c (Proc.devRef .tc main_arg6) = m ((c : Thread nD τ).loc main_arg6) := by
  show StableHlo.after hostOps1 (W2 m ρ c) (Proc.devRef .tc main_arg6) = _
  after_results_simp
  all_goals exact L2_arg6 m ρ c

theorem L3_arg8 : W3 m ρ c (Proc.devRef .tc main_arg8) = m ((c : Thread nD τ).loc main_arg8) := by
  show StableHlo.after hostOps1 (W2 m ρ c) (Proc.devRef .tc main_arg8) = _
  after_results_simp
  all_goals exact L2_arg8 m ρ c

/-- The degree factor as a vector, in the form the stretch's later operations read it. -/
theorem L3_v12_fn : (fun i => shapeCast main_v12.ty.shape (W2 m ρ c (Proc.devRef .tc main_v11)) shapeCasts_S500000x1_S500000 i)
    = val_main_v10 (F := Ideal) (m ((c : Thread nD τ).loc main_arg7)) := by
  refine (show _ = shapeCast S500000 (W2 m ρ c (Proc.devRef .tc main_v11)) shapeCasts_S500000x1_S500000 from rfl).trans ?_
  rw [L2_v11 m ρ c, shapeCast_vec, ← dis_eq]

theorem L3_v12 : W3 m ρ c (Proc.devRef .tc main_v12) = val_main_v10 (F := Ideal) (m ((c : Thread nD τ).loc main_arg7)) := by
  show StableHlo.after hostOps1 (W2 m ρ c) (Proc.devRef .tc main_v12) = _
  after_results_simp
  try simp only [eqRec_eq_cast, eq_mpr_eq_cast, cast_eq]
  exact L3_v12_fn m ρ c

theorem L3_v19 : W3 m ρ c (Proc.devRef .tc main_v19) = val_main_v18 (F := Ideal) (m ((c : Thread nD τ).loc main_arg7)) := by
  show StableHlo.after hostOps1 (W2 m ρ c) (Proc.devRef .tc main_v19) = _
  after_results_simp
  try simp only [eqRec_eq_cast, eq_mpr_eq_cast, cast_eq]
  rw [L3_v12_fn m ρ c, L2_v1 m ρ c]
  simp only [val_main_v18, val_main_v17, val_main_v16, val_main_v15, val_main_v14, val_main_v13, val_main_v12, val_main_c, val_main_c_2]
  rfl

theorem L3_v26 : W3 m ρ c (Proc.devRef .tc main_v26) = val_main_v25 (F := Ideal) (m ((c : Thread nD τ).loc main_arg7)) := by
  show StableHlo.after hostOps1 (W2 m ρ c) (Proc.devRef .tc main_v26) = _
  after_results_simp
  try simp only [eqRec_eq_cast, eq_mpr_eq_cast, cast_eq]
  rw [L3_v12_fn m ρ c, L2_v3 m ρ c]
  simp only [val_main_v25, val_main_v24, val_main_v23, val_main_v22, val_main_v21, val_main_v20, val_main_v19, val_main_c_3, val_main_c_4]
  rfl

/-! ## Valuation 4 -/

theorem L4_v1 : W4 m ρ c (Proc.devRef .tc main_v1) = val_main_v1 (F := Ideal) (m ((c : Thread nD τ).loc main_arg7)) :=
  (W4_of_ne m ρ c main_v1 (by decide)).trans (L3_v1 m ρ c)

theorem L4_v3 : W4 m ρ c (Proc.devRef .tc main_v3) = val_main_v3 (F := Ideal) (m ((c : Thread nD τ).loc main_arg7)) :=
  (W4_of_ne m ρ c main_v3 (by decide)).trans (L3_v3 m ρ c)

theorem L4_v12 : W4 m ρ c (Proc.devRef .tc main_v12) = val_main_v10 (F := Ideal) (m ((c : Thread nD τ).loc main_arg7)) :=
  (W4_of_ne m ρ c main_v12 (by decide)).trans (L3_v12 m ρ c)

theorem L4_v19 : W4 m ρ c (Proc.devRef .tc main_v19) = val_main_v18 (F := Ideal) (m ((c : Thread nD τ).loc main_arg7)) :=
  (W4_of_ne m ρ c main_v19 (by decide)).trans (L3_v19 m ρ c)

theorem L4_v26 : W4 m ρ c (Proc.devRef .tc main_v26) = val_main_v25 (F := Ideal) (m ((c : Thread nD τ).loc main_arg7)) :=
  (W4_of_ne m ρ c main_v26 (by decide)).trans (L3_v26 m ρ c)

theorem L4_arg2 : W4 m ρ c (Proc.devRef .tc main_arg2) = m ((c : Thread nD τ).loc main_arg2) :=
  (W4_of_ne m ρ c main_arg2 (by decide)).trans (L3_arg2 m ρ c)

theorem L4_arg3 : W4 m ρ c (Proc.devRef .tc main_arg3) = m ((c : Thread nD τ).loc main_arg3) :=
  (W4_of_ne m ρ c main_arg3 (by decide)).trans (L3_arg3 m ρ c)

theorem L4_arg4 : W4 m ρ c (Proc.devRef .tc main_arg4) = m ((c : Thread nD τ).loc main_arg4) :=
  (W4_of_ne m ρ c main_arg4 (by decide)).trans (L3_arg4 m ρ c)

theorem L4_arg5 : W4 m ρ c (Proc.devRef .tc main_arg5) = m ((c : Thread nD τ).loc main_arg5) :=
  (W4_of_ne m ρ c main_arg5 (by decide)).trans (L3_arg5 m ρ c)

theorem L4_arg6 : W4 m ρ c (Proc.devRef .tc main_arg6) = m ((c : Thread nD τ).loc main_arg6) :=
  (W4_of_ne m ρ c main_arg6 (by decide)).trans (L3_arg6 m ρ c)

theorem L4_arg8 : W4 m ρ c (Proc.devRef .tc main_arg8) = m ((c : Thread nD τ).loc main_arg8) :=
  (W4_of_ne m ρ c main_arg8 (by decide)).trans (L3_arg8 m ρ c)

/-- The first product call leaves the reference's first product. -/
theorem L4_v27 : W4 m ρ c (Proc.devRef .tc main_v27) = val_main_v11 (F := Ideal) (m ((c : Thread nD τ).loc main_arg0)) (m ((c : Thread nD τ).loc main_arg1)) := by
  refine (W4_arr m ρ c 2).trans ((Region1.arr (V3 m ρ) c).trans ?_)
  refine Eq.trans ?_ (prod1_eq _ _).symm
  exact congr_fn2 (fun X W => arr2 (a := 500000) (b := 16) (prod (k := 2) X W)) (L3_arg0 m ρ c) (L3_arg1 m ρ c)

end Cert.KernelIdeal.Levels

end
-- ==== Proof.LevelsB.lean ====
/-
  The contents of the kernel program's buffers between its host stretches and its pallas_calls, through the first layer:
  each buffer a later step reads holds the value of the reference's matching stage — the edge endpoints, the degree
  factor and its two gathered copies, the products, messages, aggregates and layer outputs. A host stretch applies the
  same operations the reference applies to equal operands; a call's output is the entry-wise function its blocks
  compute, which is the reference's stage by the stage equations; a buffer nothing writes keeps its value.
-/
import proofs.«175368_j53214644797942_2_alg».proof.Proof.Gen.KernelIdeal.Frame
import proofs.«175368_j53214644797942_2_alg».proof.Proof.Region2
import proofs.«175368_j53214644797942_2_alg».proof.Proof.Region3
import proofs.«175368_j53214644797942_2_alg».proof.Proof.RefStages
import proofs.«175368_j53214644797942_2_alg».proof.Proof.Layout
import proofs.«175368_j53214644797942_2_alg».proof.Proof.LevelsA
import Idealize.ShloMosaic.Lib.StableHlo.Run

set_option maxRecDepth 16384

noncomputable section

namespace Cert.KernelIdeal.Levels

open Cert.KernelIdeal Cert.KernelIdeal.Gen Idealize.ShloMosaic Idealize.ShloMosaic.TcCoe Idealize.SL.Sem
open Idealize.ShloMosaic.StableHlo Idealize.ShloMosaic.ValueIdx Cert.Gcn
open Cert.ReferenceIdeal.Read Cert.ReferenceIdeal.Stages

variable (m : (ℓ : Loc nD τ sig) → Buf (Elt Ideal) ℓ) (ρ : Dev nD → PrngReg) (c : Dev nD)

/-! ## Valuation 5 -/

theorem L5_v1 : W5 m ρ c (Proc.devRef .tc main_v1) = val_main_v1 (F := Ideal) (m ((c : Thread nD τ).loc main_arg7)) := by
  show StableHlo.after hostOps2 (W4 m ρ c) (Proc.devRef .tc main_v1) = _
  after_results_simp
  all_goals exact L4_v1 m ρ c

theorem L5_v3 : W5 m ρ c (Proc.devRef .tc main_v3) = val_main_v3 (F := Ideal) (m ((c : Thread nD τ).loc main_arg7)) := by
  show StableHlo.after hostOps2 (W4 m ρ c) (Proc.devRef .tc main_v3) = _
  after_results_simp
  all_goals exact L4_v3 m ρ c

theorem L5_v12 : W5 m ρ c (Proc.devRef .tc main_v12) = val_main_v10 (F := Ideal) (m ((c : Thread nD τ).loc main_arg7)) := by
  show StableHlo.after hostOps2 (W4 m ρ c) (Proc.devRef .tc main_v12) = _
  after_results_simp
  all_goals exact L4_v12 m ρ c

theorem L5_v19 : W5 m ρ c (Proc.devRef .tc main_v19) = val_main_v18 (F := Ideal) (m ((c : Thread nD τ).loc main_arg7)) := by
  show StableHlo.after hostOps2 (W4 m ρ c) (Proc.devRef .tc main_v19) = _
  after_results_simp
  all_goals exact L4_v19 m ρ c

theorem L5_v26 : W5 m ρ c (Proc.devRef .tc main_v26) = val_main_v25 (F := Ideal) (m ((c : Thread nD τ).loc main_arg7)) := by
  show StableHlo.after hostOps2 (W4 m ρ c) (Proc.devRef .tc main_v26) = _
  after_results_simp
  all_goals exact L4_v26 m ρ c

theorem L5_v27 : W5 m ρ c (Proc.devRef .tc main_v27) = val_main_v11 (F := Ideal) (m ((c : Thread nD τ).loc main_arg0)) (m ((c : Thread nD τ).loc main_arg1)) := by
  show StableHlo.after hostOps2 (W4 m ρ c) (Proc.devRef .tc main_v27) = _
  after_results_simp
  all_goals exact L4_v27 m ρ c

theorem L5_arg2 : W5 m ρ c (Proc.devRef .tc main_arg2) = m ((c : Thread nD τ).loc main_arg2) := by
  show StableHlo.after hostOps2 (W4 m ρ c) (Proc.devRef .tc main_arg2) = _
  after_results_simp
  all_goals exact L4_arg2 m ρ c

theorem L5_arg3 : W5 m ρ c (Proc.devRef .tc main_arg3) = m ((c : Thread nD τ).loc main_arg3) := by
  show StableHlo.after hostOps2 (W4 m ρ c) (Proc.devRef .tc main_arg3) = _
  after_results_simp
  all_goals exact L4_arg3 m ρ c

theorem L5_arg4 : W5 m ρ c (Proc.devRef .tc main_arg4) = m ((c : Thread nD τ).loc main_arg4) := by
  show StableHlo.after hostOps2 (W4 m ρ c) (Proc.devRef .tc main_arg4) = _
  after_results_simp
  all_goals exact L4_arg4 m ρ c

theorem L5_arg5 : W5 m ρ c (Proc.devRef .tc main_arg5) = m ((c : Thread nD τ).loc main_arg5) := by
  show StableHlo.after hostOps2 (W4 m ρ c) (Proc.devRef .tc main_arg5) = _
  after_results_simp
  all_goals exact L4_arg5 m ρ c

theorem L5_arg6 : W5 m ρ c (Proc.devRef .tc main_arg6) = m ((c : Thread nD τ).loc main_arg6) := by
  show StableHlo.after hostOps2 (W4 m ρ c) (Proc.devRef .tc main_arg6) = _
  after_results_simp
  all_goals exact L4_arg6 m ρ c

theorem L5_arg8 : W5 m ρ c (Proc.devRef .tc main_arg8) = m ((c : Thread nD τ).loc main_arg8) := by
  show StableHlo.after hostOps2 (W4 m ρ c) (Proc.devRef .tc main_arg8) = _
  after_results_simp
  all_goals exact L4_arg8 m ρ c

theorem L5_v34 : W5 m ρ c (Proc.devRef .tc main_v34) = val_main_v33 (F := Ideal) (m ((c : Thread nD τ).loc main_arg0)) (m ((c : Thread nD τ).loc main_arg1)) (m ((c : Thread nD τ).loc main_arg7)) := by
  show StableHlo.after hostOps2 (W4 m ρ c) (Proc.devRef .tc main_v34) = _
  after_results_simp
  rw [L4_v27 m ρ c, L4_v1 m ρ c]
  simp only [val_main_v33, val_main_v32, val_main_v31, val_main_v30, val_main_v29, val_main_v28, val_main_v27, val_main_c_5, val_main_c_6]
  rfl

theorem L5_v35 : W5 m ρ c (Proc.devRef .tc main_v35) = colOf (val_main_v18 (F := Ideal) (m ((c : Thread nD τ).loc main_arg7))) := by
  show StableHlo.after hostOps2 (W4 m ρ c) (Proc.devRef .tc main_v35) = _
  after_results_simp
  try simp only [eqRec_eq_cast, eq_mpr_eq_cast, cast_eq]
  rw [L4_v19 m ρ c]
  exact shapeCast_col (a := 16000000) _ _

theorem L5_v36 : W5 m ρ c (Proc.devRef .tc main_v36) = colOf (val_main_v25 (F := Ideal) (m ((c : Thread nD τ).loc main_arg7))) := by
  show StableHlo.after hostOps2 (W4 m ρ c) (Proc.devRef .tc main_v36) = _
  after_results_simp
  try simp only [eqRec_eq_cast, eq_mpr_eq_cast, cast_eq]
  rw [L4_v26 m ρ c]
  exact shapeCast_col (a := 16000000) _ _

/-! ## Valuation 6 -/

theorem L6_v1 : W6 m ρ c (Proc.devRef .tc main_v1) = val_main_v1 (F := Ideal) (m ((c : Thread nD τ).loc main_arg7)) :=
  (W6_of_ne m ρ c main_v1 (by decide)).trans (L5_v1 m ρ c)

theorem L6_v3 : W6 m ρ c (Proc.devRef .tc main_v3) = val_main_v3 (F := Ideal) (m ((c : Thread nD τ).loc main_arg7)) :=
  (W6_of_ne m ρ c main_v3 (by decide)).trans (L5_v3 m ρ c)

theorem L6_v12 : W6 m ρ c (Proc.devRef .tc main_v12) = val_main_v10 (F := Ideal) (m ((c : Thread nD τ).loc main_arg7)) :=
  (W6_of_ne m ρ c main_v12 (by decide)).trans (L5_v12 m ρ c)

theorem L6_v19 : W6 m ρ c (Proc.devRef .tc main_v19) = val_main_v18 (F := Ideal) (m ((c : Thread nD τ).loc main_arg7)) :=
  (W6_of_ne m ρ c main_v19 (by decide)).trans (L5_v19 m ρ c)

theorem L6_v26 : W6 m ρ c (Proc.devRef .tc main_v26) = val_main_v25 (F := Ideal) (m ((c : Thread nD τ).loc main_arg7)) :=
  (W6_of_ne m ρ c main_v26 (by decide)).trans (L5_v26 m ρ c)

theorem L6_v27 : W6 m ρ c (Proc.devRef .tc main_v27) = val_main_v11 (F := Ideal) (m ((c : Thread nD τ).loc main_arg0)) (m ((c : Thread nD τ).loc main_arg1)) :=
  (W6_of_ne m ρ c main_v27 (by decide)).trans (L5_v27 m ρ c)

theorem L6_arg2 : W6 m ρ c (Proc.devRef .tc main_arg2) = m ((c : Thread nD τ).loc main_arg2) :=
  (W6_of_ne m ρ c main_arg2 (by decide)).trans (L5_arg2 m ρ c)

theorem L6_arg3 : W6 m ρ c (Proc.devRef .tc main_arg3) = m ((c : Thread nD τ).loc main_arg3) :=
  (W6_of_ne m ρ c main_arg3 (by decide)).trans (L5_arg3 m ρ c)

theorem L6_arg4 : W6 m ρ c (Proc.devRef .tc main_arg4) = m ((c : Thread nD τ).loc main_arg4) :=
  (W6_of_ne m ρ c main_arg4 (by decide)).trans (L5_arg4 m ρ c)

theorem L6_arg5 : W6 m ρ c (Proc.devRef .tc main_arg5) = m ((c : Thread nD τ).loc main_arg5) :=
  (W6_of_ne m ρ c main_arg5 (by decide)).trans (L5_arg5 m ρ c)

theorem L6_arg6 : W6 m ρ c (Proc.devRef .tc main_arg6) = m ((c : Thread nD τ).loc main_arg6) :=
  (W6_of_ne m ρ c main_arg6 (by decide)).trans (L5_arg6 m ρ c)

theorem L6_arg8 : W6 m ρ c (Proc.devRef .tc main_arg8) = m ((c : Thread nD τ).loc main_arg8) :=
  (W6_of_ne m ρ c main_arg8 (by decide)).trans (L5_arg8 m ρ c)

/-- The first message call leaves the reference's first messages. -/
theorem L6_v37 : W6 m ρ c (Proc.devRef .tc main_v37) = val_main_v36 (F := Ideal) (m ((c : Thread nD τ).loc main_arg0)) (m ((c : Thread nD τ).loc main_arg1)) (m ((c : Thread nD τ).loc main_arg7)) := by
  refine (W6_arr m ρ c 3).trans ((Region2.arr (V5 m ρ) c).trans ?_)
  refine Eq.trans ?_ (msg1_eq _ _ _).symm
  exact congr_fn3 (fun H x y => arr2 (a := 16000000) (b := 16) (msg H x y)) (L5_v34 m ρ c) (L5_v35 m ρ c) (L5_v36 m ρ c)

/-! ## Valuation 7 -/

theorem L7_v1 : W7 m ρ c (Proc.devRef .tc main_v1) = val_main_v1 (F := Ideal) (m ((c : Thread nD τ).loc main_arg7)) := by
  show StableHlo.after hostOps3 (W6 m ρ c) (Proc.devRef .tc main_v1) = _
  after_results_simp
  all_goals exact L6_v1 m ρ c

theorem L7_v3 : W7 m ρ c (Proc.devRef .tc main_v3) = val_main_v3 (F := Ideal) (m ((c : Thread nD τ).loc main_arg7)) := by
  show StableHlo.after hostOps3 (W6 m ρ c) (Proc.devRef .tc main_v3) = _
  after_results_simp
  all_goals exact L6_v3 m ρ c

theorem L7_v12 : W7 m ρ c (Proc.devRef .tc main_v12) = val_main_v10 (F := Ideal) (m ((c : Thread nD τ).loc main_arg7)) := by
  show StableHlo.after hostOps3 (W6 m ρ c) (Proc.devRef .tc main_v12) = _
  after_results_simp
  all_goals exact L6_v12 m ρ c

theorem L7_v19 : W7 m ρ c (Proc.devRef .tc main_v19) = val_main_v18 (F := Ideal) (m ((c : Thread nD τ).loc main_arg7)) := by
  show StableHlo.after hostOps3 (W6 m ρ c) (Proc.devRef .tc main_v19) = _
  after_results_simp
  all_goals exact L6_v19 m ρ c

theorem L7_v26 : W7 m ρ c (Proc.devRef .tc main_v26) = val_main_v25 (F := Ideal) (m ((c : Thread nD τ).loc main_arg7)) := by
  show StableHlo.after hostOps3 (W6 m ρ c) (Proc.devRef .tc main_v26) = _
  after_results_simp
  all_goals exact L6_v26 m ρ c

theorem L7_v27 : W7 m ρ c (Proc.devRef .tc main_v27) = val_main_v11 (F := Ideal) (m ((c : Thread nD τ).loc main_arg0)) (m ((c : Thread nD τ).loc main_arg1)) := by
  show StableHlo.after hostOps3 (W6 m ρ c) (Proc.devRef .tc main_v27) = _
  after_results_simp
  all_goals exact L6_v27 m ρ c

theorem L7_arg3 : W7 m ρ c (Proc.devRef .tc main_arg3) = m ((c : Thread nD τ).loc main_arg3) := by
  show StableHlo.after hostOps3 (W6 m ρ c) (Proc.devRef .tc main_arg3) = _
  after_results_simp
  all_goals exact L6_arg3 m ρ c

theorem L7_arg4 : W7 m ρ c (Proc.devRef .tc main_arg4) = m ((c : Thread nD τ).loc main_arg4) := by
  show StableHlo.after hostOps3 (W6 m ρ c) (Proc.devRef .tc main_arg4) = _
  after_results_simp
  all_goals exact L6_arg4 m ρ c

theorem L7_arg5 : W7 m ρ c (Proc.devRef .tc main_arg5) = m ((c : Thread nD τ).loc main_arg5) := by
  show StableHlo.after hostOps3 (W6 m ρ c) (Proc.devRef .tc main_arg5) = _
  after_results_simp
  all_goals exact L6_arg5 m ρ c

theorem L7_arg6 : W7 m ρ c (Proc.devRef .tc main_arg6) = m ((c : Thread nD τ).loc main_arg6) := by
  show StableHlo.after hostOps3 (W6 m ρ c) (Proc.devRef .tc main_arg6) = _
  after_results_simp
  all_goals exact L6_arg6 m ρ c

theorem L7_arg8 : W7 m ρ c (Proc.devRef .tc main_arg8) = m ((c : Thread nD τ).loc main_arg8) := by
  show StableHlo.after hostOps3 (W6 m ρ c) (Proc.devRef .tc main_arg8) = _
  after_results_simp
  all_goals exact L6_arg8 m ρ c

theorem L7_v40 : W7 m ρ c (Proc.devRef .tc main_v40) = val_main_v39 (F := Ideal) (m ((c : Thread nD τ).loc main_arg0)) (m ((c : Thread nD τ).loc main_arg1)) (m ((c : Thread nD τ).loc main_arg7)) := by
  show StableHlo.after hostOps3 (W6 m ρ c) (Proc.devRef .tc main_v40) = _
  after_results_simp
  rw [L6_v3 m ρ c, L6_v37 m ρ c]
  simp only [val_main_v39, val_main_v38, val_main_v37, val_main_cst_7]
  rfl

theorem L7_v41 : W7 m ρ c (Proc.devRef .tc main_v41) = colOf (val_main_v10 (F := Ideal) (m ((c : Thread nD τ).loc main_arg7))) := by
  show StableHlo.after hostOps3 (W6 m ρ c) (Proc.devRef .tc main_v41) = _
  after_results_simp
  try simp only [eqRec_eq_cast, eq_mpr_eq_cast, cast_eq]
  rw [L6_v12 m ρ c]
  exact shapeCast_col (a := 500000) _ _

theorem L7_v42 : W7 m ρ c (Proc.devRef .tc main_v42) = rowOf (m ((c : Thread nD τ).loc main_arg2)) := by
  show StableHlo.after hostOps3 (W6 m ρ c) (Proc.devRef .tc main_v42) = _
  after_results_simp
  try simp only [eqRec_eq_cast, eq_mpr_eq_cast, cast_eq]
  rw [L6_arg2 m ρ c]
  exact shapeCast_row (b := 16) _ _

/-! ## Valuation 8 -/

theorem L8_v1 : W8 m ρ c (Proc.devRef .tc main_v1) = val_main_v1 (F := Ideal) (m ((c : Thread nD τ).loc main_arg7)) :=
  (W8_of_ne m ρ c main_v1 (by decide)).trans (L7_v1 m ρ c)

theorem L8_v3 : W8 m ρ c (Proc.devRef .tc main_v3) = val_main_v3 (F := Ideal) (m ((c : Thread nD τ).loc main_arg7)) :=
  (W8_of_ne m ρ c main_v3 (by decide)).trans (L7_v3 m ρ c)

theorem L8_v12 : W8 m ρ c (Proc.devRef .tc main_v12) = val_main_v10 (F := Ideal) (m ((c : Thread nD τ).loc main_arg7)) :=
  (W8_of_ne m ρ c main_v12 (by decide)).trans (L7_v12 m ρ c)

theorem L8_v19 : W8 m ρ c (Proc.devRef .tc main_v19) = val_main_v18 (F := Ideal) (m ((c : Thread nD τ).loc main_arg7)) :=
  (W8_of_ne m ρ c main_v19 (by decide)).trans (L7_v19 m ρ c)

theorem L8_v26 : W8 m ρ c (Proc.devRef .tc main_v26) = val_main_v25 (F := Ideal) (m ((c : Thread nD τ).loc main_arg7)) :=
  (W8_of_ne m ρ c main_v26 (by decide)).trans (L7_v26 m ρ c)

theorem L8_arg3 : W8 m ρ c (Proc.devRef .tc main_arg3) = m ((c : Thread nD τ).loc main_arg3) :=
  (W8_of_ne m ρ c main_arg3 (by decide)).trans (L7_arg3 m ρ c)

theorem L8_arg4 : W8 m ρ c (Proc.devRef .tc main_arg4) = m ((c : Thread nD τ).loc main_arg4) :=
  (W8_of_ne m ρ c main_arg4 (by decide)).trans (L7_arg4 m ρ c)

theorem L8_arg5 : W8 m ρ c (Proc.devRef .tc main_arg5) = m ((c : Thread nD τ).loc main_arg5) :=
  (W8_of_ne m ρ c main_arg5 (by decide)).trans (L7_arg5 m ρ c)

theorem L8_arg6 : W8 m ρ c (Proc.devRef .tc main_arg6) = m ((c : Thread nD τ).loc main_arg6) :=
  (W8_of_ne m ρ c main_arg6 (by decide)).trans (L7_arg6 m ρ c)

theorem L8_arg8 : W8 m ρ c (Proc.devRef .tc main_arg8) = m ((c : Thread nD τ).loc main_arg8) :=
  (W8_of_ne m ρ c main_arg8 (by decide)).trans (L7_arg8 m ρ c)

/-- The first combine call leaves the reference's first layer output. -/
theorem L8_v43 : W8 m ρ c (Proc.devRef .tc main_v43) = val_main_v48 (F := Ideal) (m ((c : Thread nD τ).loc main_arg0)) (m ((c : Thread nD τ).loc main_arg1)) (m ((c : Thread nD τ).loc main_arg2)) (m ((c : Thread nD τ).loc main_arg7)) := by
  refine (W8_arr m ρ c 4).trans ((Region3.arr (V7 m ρ) c).trans ?_)
  refine Eq.trans ?_ (comb1_eq _ _ _ _).symm
  exact congr_fn4 (fun S H d β => arr2 (a := 500000) (b := 16) (comb S H d β))
    (L7_v40 m ρ c) (L7_v27 m ρ c) (L7_v41 m ρ c) (L7_v42 m ρ c)

end Cert.KernelIdeal.Levels

end
-- ==== Proof.LevelsC.lean ====
/-
  The contents of the kernel program's buffers between its host stretches and its pallas_calls, through the second product and message calls:
  each buffer a later step reads holds the value of the reference's matching stage — the edge endpoints, the degree
  factor and its two gathered copies, the products, messages, aggregates and layer outputs. A host stretch applies the
  same operations the reference applies to equal operands; a call's output is the entry-wise function its blocks
  compute, which is the reference's stage by the stage equations; a buffer nothing writes keeps its value.
-/
import proofs.«175368_j53214644797942_2_alg».proof.Proof.Gen.KernelIdeal.Frame
import proofs.«175368_j53214644797942_2_alg».proof.Proof.Region4
import proofs.«175368_j53214644797942_2_alg».proof.Proof.Region5
import proofs.«175368_j53214644797942_2_alg».proof.Proof.RefStages
import proofs.«175368_j53214644797942_2_alg».proof.Proof.Layout
import proofs.«175368_j53214644797942_2_alg».proof.Proof.LevelsB
import Idealize.ShloMosaic.Lib.StableHlo.Run

set_option maxRecDepth 16384

noncomputable section

namespace Cert.KernelIdeal.Levels

open Cert.KernelIdeal Cert.KernelIdeal.Gen Idealize.ShloMosaic Idealize.ShloMosaic.TcCoe Idealize.SL.Sem
open Idealize.ShloMosaic.StableHlo Idealize.ShloMosaic.ValueIdx Cert.Gcn
open Cert.ReferenceIdeal.Read Cert.ReferenceIdeal.Stages

variable (m : (ℓ : Loc nD τ sig) → Buf (Elt Ideal) ℓ) (ρ : Dev nD → PrngReg) (c : Dev nD)

/-! ## Valuation 9 -/

theorem L9_v1 : W9 m ρ c (Proc.devRef .tc main_v1) = val_main_v1 (F := Ideal) (m ((c : Thread nD τ).loc main_arg7)) :=
  (W9_of_ne m ρ c main_v1 (by decide)).trans (L8_v1 m ρ c)

theorem L9_v3 : W9 m ρ c (Proc.devRef .tc main_v3) = val_main_v3 (F := Ideal) (m ((c : Thread nD τ).loc main_arg7)) :=
  (W9_of_ne m ρ c main_v3 (by decide)).trans (L8_v3 m ρ c)

theorem L9_v12 : W9 m ρ c (Proc.devRef .tc main_v12) = val_main_v10 (F := Ideal) (m ((c : Thread nD τ).loc main_arg7)) :=
  (W9_of_ne m ρ c main_v12 (by decide)).trans (L8_v12 m ρ c)

theorem L9_v19 : W9 m ρ c (Proc.devRef .tc main_v19) = val_main_v18 (F := Ideal) (m ((c : Thread nD τ).loc main_arg7)) :=
  (W9_of_ne m ρ c main_v19 (by decide)).trans (L8_v19 m ρ c)

theorem L9_v26 : W9 m ρ c (Proc.devRef .tc main_v26) = val_main_v25 (F := Ideal) (m ((c : Thread nD τ).loc main_arg7)) :=
  (W9_of_ne m ρ c main_v26 (by decide)).trans (L8_v26 m ρ c)

theorem L9_arg4 : W9 m ρ c (Proc.devRef .tc main_arg4) = m ((c : Thread nD τ).loc main_arg4) :=
  (W9_of_ne m ρ c main_arg4 (by decide)).trans (L8_arg4 m ρ c)

theorem L9_arg5 : W9 m ρ c (Proc.devRef .tc main_arg5) = m ((c : Thread nD τ).loc main_arg5) :=
  (W9_of_ne m ρ c main_arg5 (by decide)).trans (L8_arg5 m ρ c)

theorem L9_arg6 : W9 m ρ c (Proc.devRef .tc main_arg6) = m ((c : Thread nD τ).loc main_arg6) :=
  (W9_of_ne m ρ c main_arg6 (by decide)).trans (L8_arg6 m ρ c)

theorem L9_arg8 : W9 m ρ c (Proc.devRef .tc main_arg8) = m ((c : Thread nD τ).loc main_arg8) :=
  (W9_of_ne m ρ c main_arg8 (by decide)).trans (L8_arg8 m ρ c)

/-- The second product call leaves the reference's second product. -/
theorem L9_v44 : W9 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  refine (W9_arr m ρ c 2).trans ((Region4.arr (V8 m ρ) c).trans ?_)
  refine Eq.trans ?_ (prod2_eq _ _ _ _ _).symm
  exact congr_fn2 (fun X W => arr2 (a := 500000) (b := 16) (prod (k := 16) X W)) (L8_v43 m ρ c) (L8_arg3 m ρ c)

/-! ## Valuation 10 -/

theorem L10_v3 : W10 m ρ c (Proc.devRef .tc main_v3) = val_main_v3 (F := Ideal) (m ((c : Thread nD τ).loc main_arg7)) := by
  show StableHlo.after hostOps5 (W9 m ρ c) (Proc.devRef .tc main_v3) = _
  after_results_simp
  all_goals exact L9_v3 m ρ c

theorem L10_v12 : W10 m ρ c (Proc.devRef .tc main_v12) = val_main_v10 (F := Ideal) (m ((c : Thread nD τ).loc main_arg7)) := by
  show StableHlo.after hostOps5 (W9 m ρ c) (Proc.devRef .tc main_v12) = _
  after_results_simp
  all_goals exact L9_v12 m ρ c

theorem L10_v44 : W10 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  show StableHlo.after hostOps5 (W9 m ρ c) (Proc.devRef .tc main_v44) = _
  after_results_simp
  all_goals exact L9_v44 m ρ c

theorem L10_arg4 : W10 m ρ c (Proc.devRef .tc main_arg4) = m ((c : Thread nD τ).loc main_arg4) := by
  show StableHlo.after hostOps5 (W9 m ρ c) (Proc.devRef .tc main_arg4) = _
  after_results_simp
  all_goals exact L9_arg4 m ρ c

theorem L10_arg5 : W10 m ρ c (Proc.devRef .tc main_arg5) = m ((c : Thread nD τ).loc main_arg5) := by
  show StableHlo.after hostOps5 (W9 m ρ c) (Proc.devRef .tc main_arg5) = _
  after_results_simp
  all_goals exact L9_arg5 m ρ c

theorem L10_arg6 : W10 m ρ c (Proc.devRef .tc main_arg6) = m ((c : Thread nD τ).loc main_arg6) := by
  show StableHlo.after hostOps5 (W9 m ρ c) (Proc.devRef .tc main_arg6) = _
  after_results_simp
  all_goals exact L9_arg6 m ρ c

theorem L10_arg8 : W10 m ρ c (Proc.devRef .tc main_arg8) = m ((c : Thread nD τ).loc main_arg8) := by
  show StableHlo.after hostOps5 (W9 m ρ c) (Proc.devRef .tc main_arg8) = _
  after_results_simp
  all_goals exact L9_arg8 m ρ c

theorem L10_v51 : W10 m ρ c (Proc.devRef .tc main_v51) = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  show StableHlo.after hostOps5 (W9 m ρ c) (Proc.devRef .tc main_v51) = _
  after_results_simp
  rw [L9_v44 m ρ c, L9_v1 m ρ c]
  simp only [val_main_v71, val_main_v70, val_main_v69, val_main_v68, val_main_v67, val_main_v66, val_main_v65, val_main_c_12, val_main_c_13]
  rfl

theorem L10_v52 : W10 m ρ c (Proc.devRef .tc main_v52) = colOf (val_main_v18 (F := Ideal) (m ((c : Thread nD τ).loc main_arg7))) := by
  show StableHlo.after hostOps5 (W9 m ρ c) (Proc.devRef .tc main_v52) = _
  after_results_simp
  try simp only [eqRec_eq_cast, eq_mpr_eq_cast, cast_eq]
  rw [L9_v19 m ρ c]
  exact shapeCast_col (a := 16000000) _ _

theorem L10_v53 : W10 m ρ c (Proc.devRef .tc main_v53) = colOf (val_main_v25 (F := Ideal) (m ((c : Thread nD τ).loc main_arg7))) := by
  show StableHlo.after hostOps5 (W9 m ρ c) (Proc.devRef .tc main_v53) = _
  after_results_simp
  try simp only [eqRec_eq_cast, eq_mpr_eq_cast, cast_eq]
  rw [L9_v26 m ρ c]
  exact shapeCast_col (a := 16000000) _ _

/-! ## Valuation 11 -/

theorem L11_v3 : W11 m ρ c (Proc.devRef .tc main_v3) = val_main_v3 (F := Ideal) (m ((c : Thread nD τ).loc main_arg7)) :=
  (W11_of_ne m ρ c main_v3 (by decide)).trans (L10_v3 m ρ c)

theorem L11_v12 : W11 m ρ c (Proc.devRef .tc main_v12) = val_main_v10 (F := Ideal) (m ((c : Thread nD τ).loc main_arg7)) :=
  (W11_of_ne m ρ c main_v12 (by decide)).trans (L10_v12 m ρ c)

theorem L11_v44 : W11 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg7)) :=
  (W11_of_ne m ρ c main_v44 (by decide)).trans (L10_v44 m ρ c)

theorem L11_arg4 : W11 m ρ c (Proc.devRef .tc main_arg4) = m ((c : Thread nD τ).loc main_arg4) :=
  (W11_of_ne m ρ c main_arg4 (by decide)).trans (L10_arg4 m ρ c)

theorem L11_arg5 : W11 m ρ c (Proc.devRef .tc main_arg5) = m ((c : Thread nD τ).loc main_arg5) :=
  (W11_of_ne m ρ c main_arg5 (by decide)).trans (L10_arg5 m ρ c)

theorem L11_arg6 : W11 m ρ c (Proc.devRef .tc main_arg6) = m ((c : Thread nD τ).loc main_arg6) :=
  (W11_of_ne m ρ c main_arg6 (by decide)).trans (L10_arg6 m ρ c)

theorem L11_arg8 : W11 m ρ c (Proc.devRef .tc main_arg8) = m ((c : Thread nD τ).loc main_arg8) :=
  (W11_of_ne m ρ c main_arg8 (by decide)).trans (L10_arg8 m ρ c)

/-- The second message call leaves the reference's second messages. -/
theorem L11_v54 : W11 m ρ c (Proc.devRef .tc main_v54) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  refine (W11_arr m ρ c 3).trans ((Region5.arr (V10 m ρ) c).trans ?_)
  refine Eq.trans ?_ (msg2_eq _ _ _ _ _).symm
  exact congr_fn3 (fun H x y => arr2 (a := 16000000) (b := 16) (msg H x y)) (L10_v51 m ρ c) (L10_v52 m ρ c) (L10_v53 m ρ c)

/-! ## Valuation 12 -/

theorem L12_v44 : W12 m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  show StableHlo.after hostOps6 (W11 m ρ c) (Proc.devRef .tc main_v44) = _
  after_results_simp
  all_goals exact L11_v44 m ρ c

theorem L12_arg5 : W12 m ρ c (Proc.devRef .tc main_arg5) = m ((c : Thread nD τ).loc main_arg5) := by
  show StableHlo.after hostOps6 (W11 m ρ c) (Proc.devRef .tc main_arg5) = _
  after_results_simp
  all_goals exact L11_arg5 m ρ c

theorem L12_arg6 : W12 m ρ c (Proc.devRef .tc main_arg6) = m ((c : Thread nD τ).loc main_arg6) := by
  show StableHlo.after hostOps6 (W11 m ρ c) (Proc.devRef .tc main_arg6) = _
  after_results_simp
  all_goals exact L11_arg6 m ρ c

theorem L12_arg8 : W12 m ρ c (Proc.devRef .tc main_arg8) = m ((c : Thread nD τ).loc main_arg8) := by
  show StableHlo.after hostOps6 (W11 m ρ c) (Proc.devRef .tc main_arg8) = _
  after_results_simp
  all_goals exact L11_arg8 m ρ c

theorem L12_v57 : W12 m ρ c (Proc.devRef .tc main_v57) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  show StableHlo.after hostOps6 (W11 m ρ c) (Proc.devRef .tc main_v57) = _
  after_results_simp
  rw [L11_v3 m ρ c, L11_v54 m ρ c]
  simp only [val_main_v77, val_main_v76, val_main_v75, val_main_cst_14]
  rfl

theorem L12_v58 : W12 m ρ c (Proc.devRef .tc main_v58) = colOf (val_main_v10 (F := Ideal) (m ((c : Thread nD τ).loc main_arg7))) := by
  show StableHlo.after hostOps6 (W11 m ρ c) (Proc.devRef .tc main_v58) = _
  after_results_simp
  try simp only [eqRec_eq_cast, eq_mpr_eq_cast, cast_eq]
  rw [L11_v12 m ρ c]
  exact shapeCast_col (a := 500000) _ _

theorem L12_v59 : W12 m ρ c (Proc.devRef .tc main_v59) = rowOf (m ((c : Thread nD τ).loc main_arg4)) := by
  show StableHlo.after hostOps6 (W11 m ρ c) (Proc.devRef .tc main_v59) = _
  after_results_simp
  try simp only [eqRec_eq_cast, eq_mpr_eq_cast, cast_eq]
  rw [L11_arg4 m ρ c]
  exact shapeCast_row (b := 16) _ _

end Cert.KernelIdeal.Levels

end
-- ==== Proof.LevelsD.lean ====
/-
  The contents of the kernel program's buffers between its host stretches and its pallas_calls, through the second layer, the pooling sums and counts, and the pooling call: the kernel's result:
  each buffer a later step reads holds the value of the reference's matching stage — the edge endpoints, the degree
  factor and its two gathered copies, the products, messages, aggregates and layer outputs. A host stretch applies the
  same operations the reference applies to equal operands; a call's output is the entry-wise function its blocks
  compute, which is the reference's stage by the stage equations; a buffer nothing writes keeps its value.
-/
import proofs.«175368_j53214644797942_2_alg».proof.Proof.Gen.KernelIdeal.Frame
import proofs.«175368_j53214644797942_2_alg».proof.Proof.Region6
import proofs.«175368_j53214644797942_2_alg».proof.Proof.Region7
import proofs.«175368_j53214644797942_2_alg».proof.Proof.RefStages
import proofs.«175368_j53214644797942_2_alg».proof.Proof.Layout
import proofs.«175368_j53214644797942_2_alg».proof.Proof.LevelsC
import Idealize.ShloMosaic.Lib.StableHlo.Run

set_option maxRecDepth 16384

noncomputable section

namespace Cert.KernelIdeal.Levels

open Cert.KernelIdeal Cert.KernelIdeal.Gen Idealize.ShloMosaic Idealize.ShloMosaic.TcCoe Idealize.SL.Sem
open Idealize.ShloMosaic.StableHlo Idealize.ShloMosaic.ValueIdx Cert.Gcn
open Cert.ReferenceIdeal.Read Cert.ReferenceIdeal.Stages

variable (m : (ℓ : Loc nD τ sig) → Buf (Elt Ideal) ℓ) (ρ : Dev nD → PrngReg) (c : Dev nD)

/-! ## Valuation 13 -/

theorem L13_arg5 : W13 m ρ c (Proc.devRef .tc main_arg5) = m ((c : Thread nD τ).loc main_arg5) :=
  (W13_of_ne m ρ c main_arg5 (by decide)).trans (L12_arg5 m ρ c)

theorem L13_arg6 : W13 m ρ c (Proc.devRef .tc main_arg6) = m ((c : Thread nD τ).loc main_arg6) :=
  (W13_of_ne m ρ c main_arg6 (by decide)).trans (L12_arg6 m ρ c)

theorem L13_arg8 : W13 m ρ c (Proc.devRef .tc main_arg8) = m ((c : Thread nD τ).loc main_arg8) :=
  (W13_of_ne m ρ c main_arg8 (by decide)).trans (L12_arg8 m ρ c)

/-- The second combine call leaves the reference's second layer output. -/
theorem L13_v60 : W13 m ρ c (Proc.devRef .tc main_v60) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (W13_arr m ρ c 4).trans ((Region6.arr (V12 m ρ) c).trans ?_)
  refine Eq.trans ?_ (comb2_eq _ _ _ _ _ _).symm
  exact congr_fn4 (fun S H d β => arr2 (a := 500000) (b := 16) (comb S H d β))
    (L12_v57 m ρ c) (L12_v44 m ρ c) (L12_v58 m ρ c) (L12_v59 m ρ c)

/-! ## Valuation 14 -/

theorem L14_arg5 : W14 m ρ c (Proc.devRef .tc main_arg5) = m ((c : Thread nD τ).loc main_arg5) := by
  show StableHlo.after hostOps7 (W13 m ρ c) (Proc.devRef .tc main_arg5) = _
  after_results_simp
  all_goals exact L13_arg5 m ρ c

theorem L14_v63 : W14 m ρ c (Proc.devRef .tc main_v63) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) := by
  show StableHlo.after hostOps7 (W13 m ρ c) (Proc.devRef .tc main_v63) = _
  after_results_simp
  rw [L13_arg8 m ρ c, L13_v60 m ρ c]
  simp only [val_main_v89, val_main_v88, val_main_v87, val_main_cst_15]
  rfl

theorem L14_v68 : W14 m ρ c (Proc.devRef .tc main_v68) = colOf (val_main_v93 (F := Ideal) (m ((c : Thread nD τ).loc main_arg8))) := by
  show StableHlo.after hostOps7 (W13 m ρ c) (Proc.devRef .tc main_v68) = _
  after_results_simp
  try simp only [eqRec_eq_cast, eq_mpr_eq_cast, cast_eq]
  rw [L13_arg8 m ρ c]
  refine (shapeCast_col (a := 4096) _ _).trans (congr_fn1 colOf ?_)
  simp only [val_main_v93, val_main_v92, val_main_v91, val_main_v90, val_main_cst_16, val_main_cst_17]
  rfl

theorem L14_v69 : W14 m ρ c (Proc.devRef .tc main_v69) = rowOf (m ((c : Thread nD τ).loc main_arg6)) := by
  show StableHlo.after hostOps7 (W13 m ρ c) (Proc.devRef .tc main_v69) = _
  after_results_simp
  try simp only [eqRec_eq_cast, eq_mpr_eq_cast, cast_eq]
  rw [L13_arg6 m ρ c]
  exact shapeCast_row (b := 1) _ _

/-! ## Valuation 15 -/

/-- The pooling call leaves the reference's result. -/
theorem result : W15 m ρ c (Proc.devRef .tc main_v70) = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W15_arr m ρ c 4).trans ((Region7.arr (V14 m ρ) c).trans ?_)
  refine Eq.trans ?_ (pool_eq _ _ _ _ _ _ _ _ _).symm
  exact congr_fn4 (fun S n W β => arr2 (a := 4096) (b := 1) (pool (k := 16) S n W β))
    (L14_v63 m ρ c) (L14_v68 m ρ c) (L14_arg5 m ρ c) (L14_v69 m ρ c)

end Cert.KernelIdeal.Levels

end
-- ==== Proof.lean ====
/-
  A two-layer graph convolution with mean pooling and a linear head, as eight pallas_calls among host gathers and
  scatter-adds, against the same network written with whole-array operations.

  On the extended reals both programs compute, from the features x, the weights W1, b1, W2, b2, Wfc, bfc, the edge list
  and the graph ids:
    deg  = (number of edges into a node) + 1,   dis = rsqrt deg,
    layer(h, W, b) = max (scatter-add over targets of (h·W)[src] · (dis[src] · dis[dst]) + (h·W) · (dis · dis) + b) 0,
    result = (scatter-add over graphs of layer(layer(x, W1, b1), W2, b2)) / max (graph sizes) 1 · Wfc + bfc.
  The kernel computes rsqrt, the two products, the two message scalings, the two combines and the pooled head a block
  of rows at a time; the narrowing of the products' operands to bf16 is the identity on the extended reals. Every
  operation is applied in the same order and grouping on both sides, so no law of arithmetic is needed and the
  finiteness of the inputs is never used: the kernel's buffers are followed from the launch to the result, each holding
  the value of the reference's matching stage (Proof/LevelsA … LevelsD), and the result buffer ends at the reference's
  result.

  The three frames: the two kernel programs' are the generated frame certificates; the reference's is its generated run
  with the result dropped. Nothing was rewritten between the kernel and its idealization.
-/
import proofs.«175368_j53214644797942_2_alg».proof.Defs
import proofs.«175368_j53214644797942_2_alg».proof.Proof.Gen.Kernel
import proofs.«175368_j53214644797942_2_alg».proof.Proof.Gen.Kernel.Frame
import proofs.«175368_j53214644797942_2_alg».proof.Proof.Gen.KernelIdeal
import proofs.«175368_j53214644797942_2_alg».proof.Proof.Gen.KernelIdeal.Frame
import proofs.«175368_j53214644797942_2_alg».proof.Proof.Gen.ReferenceIdeal
import proofs.«175368_j53214644797942_2_alg».proof.Proof.Gen.Pre_finite_inputs
import proofs.«175368_j53214644797942_2_alg».proof.Proof.Gen.ReferenceIdeal.Read
import proofs.«175368_j53214644797942_2_alg».proof.Proof.KernelRun
import proofs.«175368_j53214644797942_2_alg».proof.Proof.LevelsD
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's result buffer holds
    the reference's last stage of the kernel's arguments, the reference's holds it of its own, and the arguments agree. -/
theorem algebraic : Cert.algebraic_KernelIdeal_ReferenceIdeal := by
  intro m ρ m' ρ' _ hagree
  refine ⟨fun c => Cert.KernelIdeal.Gen.W15 m ρ c (Proc.devRef .tc Cert.KernelIdeal.main_v70),
    Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v102_eq, h0, h1, h2, h3, h4, h5, h6, h7, h8]
  exact (Cert.KernelIdeal.Levels.result m ρ c).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
